-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x16 : S_.BroadcastsInDim S10000x16 (![] : Fin 0 → Fin S10000x16.rank)
  reducesTo_S10000x16_S_d0_1 : S10000x16.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_arg5 : FVec F S32x16 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x16 .f32) (main_arg3 : FVec F S128x32 .f32) (main_arg4 : FVec F S32x16 .f32) (main_arg5 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S32x32 : Shape := ⟨2, ![32, 32]⟩
abbrev S10000x32 : Shape := ⟨2, ![10000, 32]⟩
abbrev S400x10000 : Shape := ⟨2, ![400, 10000]⟩
abbrev S400x32 : Shape := ⟨2, ![400, 32]⟩
abbrev S400x16 : Shape := ⟨2, ![400, 16]⟩

abbrev nBuf : Space → Nat
  | .hbm => 10
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S32x32, .f32⟩
  | .hbm, ⟨7, _⟩ => ⟨S10000x32, .f32⟩
  | .hbm, ⟨8, _⟩ => ⟨S10000x16, .f32⟩
  | .hbm, ⟨9, _⟩ => ⟨S10000x10000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x32, .f32⟩
  | .local _ .vmem, ⟨4, _⟩ => ⟨S32x32, .f32⟩
  | .local _ .vmem, ⟨5, _⟩ => ⟨S400x32, .f32⟩
  | .local _ .vmem, ⟨6, _⟩ => ⟨S400x32, .f32⟩
  | .local _ .vmem, ⟨7, _⟩ => ⟨S10000x32, .f32⟩
  | .local _ .vmem, ⟨8, _⟩ => ⟨S400x10000, .f32⟩
  | .local _ .vmem, ⟨9, _⟩ => ⟨S400x10000, .f32⟩
  | .local _ .vmem, ⟨10, _⟩ => ⟨S10000x32, .f32⟩
  | .local _ .vmem, ⟨11, _⟩ => ⟨S400x16, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S400x16, .f32⟩
  | .local _ .vmem, ⟨16, _⟩ => ⟨S400x16, .f32⟩
  | .local _ .vmem, ⟨17, _⟩ => ⟨S10000x16, .f32⟩
  | .local _ .vmem, ⟨18, _⟩ => ⟨S400x10000, .f32⟩
  | .local _ .vmem, ⟨19, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S32x16_S32x16_S32x32_d1 : Shape.Concatenates [S32x16, S32x16] S32x32 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  inb_S400x16_S400x16_0_0 : ∀ a, (![0, 0] : Fin 2 → Nat) a + S400x16.size a ≤ S400x16.size a
  h_S400x16 : 0 < S400x16.numel
  slices_S400x32_o0_16_S400x16 : S400x32.Slices ![0, 16] S400x16
  slices_S400x32_o0_0_S400x16 : S400x32.Slices ![0, 0] S400x16
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x16_S10000x16_S400x10000_1_1_0_0_n_n_wf : DotDims.WF S400x16 S10000x16 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x32.size a ≤ S10000x32.size a
  hwx0_4 : ∀ i : grid0.Coords, EltTy.bits .f32 = 32 ∨ (Rect.block (s := S10000x32) S400x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x16.size a ≤ S10000x16.size a
  hwx1_2 : ∀ i : grid1.Coords, EltTy.bits .f32 = 32 ∨ (Rect.block (s := S10000x16) S400x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x16.size a ≤ S10000x16.size a
  hwx2_0 : ∀ i : grid2.Coords, EltTy.bits .f32 = 32 ∨ (Rect.block (s := S10000x16) S400x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x10000.size a ≤ S10000x10000.size a
  hwx2_2 : ∀ i : grid2.Coords, EltTy.bits .f32 = 32 ∨ (Rect.block (s := S10000x10000) S400x10000.size (cc2_transform_2 i) (hinb2_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S400x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S400x10000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S16x10000 : Shape := ⟨2, ![16, 10000]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S10000x32, .f32⟩
  | .hbm, ⟨7, _⟩ => ⟨S10000x32, .f32⟩
  | .hbm, ⟨8, _⟩ => ⟨S_, .f32⟩
  | .hbm, ⟨9, _⟩ => ⟨S10000x32, .f32⟩
  | .hbm, ⟨10, _⟩ => ⟨S10000x32, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S16x10000, .f32⟩
  | .hbm, ⟨19, _⟩ => ⟨S10000x10000, .f32⟩
  | .hbm, ⟨20, _⟩ => ⟨S10000x10000, .f32⟩
  | .hbm, ⟨21, _⟩ => ⟨S10000x10000, .f32⟩
  | .hbm, ⟨22, _⟩ => ⟨S_, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x16_S16x10000_1_0 : S10000x16.Transposes [1, 0] S16x10000
  bcast_S_S10000x10000 : S_.BroadcastsInDim S10000x10000 (![] : Fin 0 → Fin S10000x10000.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.BRegion0.lean ====
/-
  The first of the three passes, point by point: c = relu(adj · t0) · [W_mu | W_logstd] on a grid of 25 row blocks of 400,
  where t0 = x · W0 is computed once, at the grid's first point, into a buffer that every later point reads again.
  What each point leaves: the 400 × 32 output block is the body's arithmetic of that point's block of adj, of the
  carried buffer and of the concatenated weights; the carried buffer holds x · W0 after the first point and is not
  written again. Stated at any float instance and at any contents `V` of the core's buffers at the pass's entry.
-/
import proofs.«125266_g63213328662976_cont_sun_m_190_13_alg».proof.Proof.Gen.Kernel.Launch
import proofs.«125266_g63213328662976_cont_sun_m_190_13_alg».proof.Proof.Gen.Kernel.Skeleton
import proofs.«125266_g63213328662976_cont_sun_m_190_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, fetched there or not
    (an unfetched point has the block index of the point before it). -/
theorem before0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, fetched there or not
    (an unfetched point has the block index of the point before it). -/
theorem before1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry array at every point, fetched there or not
    (an unfetched point has the block index of the point before it). -/
theorem before2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry array at every point, fetched there or not
    (an unfetched point has the block index of the point before it). -/
theorem before3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rAdj : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rW0 : Rect S128x32 := Rect.unit (s := S128x32) ![0, 0] S128x32.size inb_S128x32_S128x32_0_0
abbrev rWc : Rect S32x32 := Rect.unit (s := S32x32) ![0, 0] S32x32.size inb_S32x32_S32x32_0_0
abbrev rOut : Rect S400x32 := Rect.unit (s := S400x32) ![0, 0] S400x32.size inb_S400x32_S400x32_0_0
abbrev rScr : Rect S10000x32 := Rect.unit (s := S10000x32) ![0, 0] S10000x32.size inb_S10000x32_S10000x32_0_0

/-- The body's one branch condition, from the grid coordinate: "this is the first point". -/
abbrev cond0 (i : grid0.Coords) : Prop := (Scalar.cmpi .ne (Scalar.extui (Scalar.cmpi .eq (BitVec.ofNat 32 (i 0).val) 0#32)) 0#32) = 1#1
/-- It holds at point 0 and nowhere else (decided over the 25 points). -/
theorem hcond0 : ∀ t : Fin cfg0.N, cond0 (grid0.coords t) ↔ t.val = 0 :=
  (by decide +kernel : ∀ t : Fin grid0.N, cond0 (grid0.coords t) ↔ t.val = 0)

/-- What the first point stores into the carried buffer: x · W0 of the two whole operands. -/
def scr (x : Vec F S10000x128 .f32) (w0 : Vec F S128x32 .f32) : Vec F S10000x32 .f32 :=
  View.canon [⟨rScr, k0_pay1 (View.ld x rX) (View.ld w0 rW0)⟩]

/-- What a point stores into the output block: relu(a · s) · wc of its block `a` of adj, the carried buffer `s`
    and the concatenated weights `wc`. -/
def outC (a : Vec F S400x10000 .f32) (s : Vec F S10000x32 .f32) (wc : Vec F S32x32 .f32) : Vec F S400x32 .f32 :=
  View.canon [⟨rOut, k0_pay2 (View.ld a rAdj) (View.ld s rScr) (View.ld wc rWc)⟩]

theorem coverScr (p0 : Vec F S10000x32 .f32) (y : S10000x32.Idx) :
    ∃ pc ∈ ([⟨rScr, p0⟩] : List (View.Piece (Elt F) S10000x32 .f32)), y ∈ pc.1.set :=
  View.cover_of_tiled [⟨rScr, p0⟩] S10000x32.size (by rfl) y
theorem coverOut (p0 : Vec F S400x32 .f32) (y : S400x32.Idx) :
    ∃ pc ∈ ([⟨rOut, p0⟩] : List (View.Piece (Elt F) S400x32 .f32)), y ∈ pc.1.set :=
  View.cover_of_tiled [⟨rOut, p0⟩] S400x32.size (by rfl) y

/-! ## The body's triple, once per control case -/

set_option maxHeartbeats 1000000 in
/-- AT THE FIRST POINT the body fills the carried buffer with x · W0 and then computes the output block from it. -/
theorem sound_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S10000x32 .f32) (harg6 : arg6.IsWhole)
    (xa : Vec F S400x10000 .f32) (xx : Vec F S10000x128 .f32) (xw : Vec F S128x32 .f32) (xc : Vec F S32x32 .f32) (K : PUnit → sProp 𝕄) :
    iprop(owns (c : Thread nD τ) arg1 fullShare xa ∗ owns (c : Thread nD τ) arg2 fullShare xx ∗ owns (c : Thread nD τ) arg3 fullShare xw
        ∗ owns (c : Thread nD τ) arg4 fullShare xc ∗ (∃ d, owns (c : Thread nD τ) arg5 fullShare d) ∗ (∃ d, owns (c : Thread nD τ) arg6 fullShare d)
        ∗ (iprop(owns (c : Thread nD τ) arg1 fullShare xa ∗ owns (c : Thread nD τ) arg2 fullShare xx ∗ owns (c : Thread nD τ) arg3 fullShare xw
            ∗ owns (c : Thread nD τ) arg4 fullShare xc ∗ owns (c : Thread nD τ) arg5 fullShare (outC xa (scr xx xw) xc)
            ∗ owns (c : Thread nD τ) arg6 fullShare (scr xx xw)) -∗ K ⟨⟩))
      ⊢ wp frame (wpE (defs₀ (F := F)) Variants.none c none) E (cc0__pass1_kernel i arg1 harg1 arg2 harg2 arg3 harg3 arg4 harg4 arg5 harg5 arg6 harg6) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    dsimp only [sound_first.sl.v4, sound_first.sl.H6_1]
    rw [View.readCov_eq_canon_ld _ _ _ (coverScr _)]
    exact View.read_writes_eq_canon _ _ _ (coverOut _)
  · iexists _; isplitr
    swap; · iexact H6
    ipureintro
    dsimp only [sound_first.sl.H6_1]
    exact View.read_writes_eq_canon _ _ _ (coverScr _)

set_option maxHeartbeats 1000000 in
/-- AT EVERY LATER POINT the body only reads the carried buffer, which it hands back as it found it. -/
theorem sound_later (c : Dev nD) (E : Set ℕ) (i : grid0.Coords) (hc : ¬ cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S10000x32 .f32) (harg6 : arg6.IsWhole)
    (xa : Vec F S400x10000 .f32) (xx : Vec F S10000x128 .f32) (xw : Vec F S128x32 .f32) (xc : Vec F S32x32 .f32) (xs : Vec F S10000x32 .f32) (K : PUnit → sProp 𝕄) :
    iprop(owns (c : Thread nD τ) arg1 fullShare xa ∗ owns (c : Thread nD τ) arg2 fullShare xx ∗ owns (c : Thread nD τ) arg3 fullShare xw
        ∗ owns (c : Thread nD τ) arg4 fullShare xc ∗ (∃ d, owns (c : Thread nD τ) arg5 fullShare d) ∗ owns (c : Thread nD τ) arg6 fullShare xs
        ∗ (iprop(owns (c : Thread nD τ) arg1 fullShare xa ∗ owns (c : Thread nD τ) arg2 fullShare xx ∗ owns (c : Thread nD τ) arg3 fullShare xw
            ∗ owns (c : Thread nD τ) arg4 fullShare xc ∗ owns (c : Thread nD τ) arg5 fullShare (outC xa xs xc)
            ∗ owns (c : Thread nD τ) arg6 fullShare xs) -∗ K ⟨⟩))
      ⊢ wp frame (wpE (defs₀ (F := F)) Variants.none c none) E (cc0__pass1_kernel i arg1 harg1 arg2 harg2 arg3 harg3 arg4 harg4 arg5 harg5 arg6 harg6) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverOut _)
  · iexists f6; isplitr; · ipureintro; rfl
    iexact H6

/-! ## The invariant between points: the carried buffer, the core's other scoped buffers, the generator register -/

/-- The carried buffer as the body is handed it. -/
abbrev scM : Memref sig .tc .vmem S10000x32 .f32 := Memref.whole cc0_scratch0

/-- The first grid point. -/
def t00 : Fin cfg0.N := ⟨0, by decide⟩

/-- What the carried buffer holds from the first point on: x · W0 of the two whole arrays as the pass finds them. -/
def S0 (c : Dev nD) : Vec F S10000x32 .f32 := scr (iblk0 V c 1 t00) (iblk0 V c 2 t00)

/-- The core's scoped buffers that this pass neither stages nor carries, each whole at some contents. -/
def restNoScr (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ restNoScr c) := by
  rw [scopedRest0_eq]; unfold restNoScr; simp only [scM, owns_whole]; rfl

/-- The carried buffer before point `t`: anything before the first point, x · W0 afterwards. -/
def scrAt (c : Dev nD) (t : Fin (cfg0.N + 1)) : sProp 𝕄 :=
  if t.val = 0 then iprop(∃ d, owns (c : Thread nD τ) scM fullShare d) else owns (c : Thread nD τ) scM fullShare (S0 V c)

/-- The invariant before point `t`. -/
def Φ0 (c : Dev nD) (t : Fin (cfg0.N + 1)) : sProp 𝕄 :=
  iprop((scrAt V c t ∗ restNoScr c) ∗ ∃ r, prngReg c r)

/-! ## The proof data -/

/-- The arrays as the pass finds them; after the body at point `t` each input's buffer at its block and the output's at
    the body's arithmetic of the point's block of adj, x · W0 and the weights; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outC (iblk0 V c 0 t) (S0 V c) (iblk0 V c 3 t)
  Φ t := Φ0 V c t
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Φ0 V c t := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outC (iblk0 V c 0 t) (S0 V c) (iblk0 V c 3 t) := by dsimp only [dat0]

theorem before0_0 (c : Dev nD) (t : Fin cfg0.N) (d) : (dat0 V c).before 0 t d = iblk0 V c 0 t :=
  before0_of V (dat0 V c) (A_eq0 V c 0) (after0_0 V c) t d
theorem before0_1 (c : Dev nD) (t : Fin cfg0.N) (d) : (dat0 V c).before 1 t d = iblk0 V c 1 t :=
  before1_of V (dat0 V c) (A_eq0 V c 1) (after0_1 V c) t d
theorem before0_2 (c : Dev nD) (t : Fin cfg0.N) (d) : (dat0 V c).before 2 t d = iblk0 V c 2 t :=
  before2_of V (dat0 V c) (A_eq0 V c 2) (after0_2 V c) t d
theorem before0_3 (c : Dev nD) (t : Fin cfg0.N) (d) : (dat0 V c).before 3 t d = iblk0 V c 3 t :=
  before3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point, by the two control cases. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, Phi_eq0, Phi_eq0]
  unfold Φ0 scrAt
  by_cases ht : t.val = 0
  · have hc : cond0 (grid0.coords t) := (hcond0 t).mpr ht
    obtain rfl : t = t00 := Fin.ext ht
    rw [if_pos (show (Fin.castSucc t00).val = 0 from rfl), if_neg (show ¬ (Fin.succ t00).val = 0 from Nat.succ_ne_zero _)]
    iintro ⟨⟨⟨⟨%ds, Hs⟩, Hrest⟩, Hp⟩, Ho, ⟨%d0, H0⟩, ⟨%d1, H1⟩, ⟨%d2, H2⟩, ⟨%d3, H3⟩, ⟨%d4, H4⟩⟩
    iapply (sound_first c Set.univ (grid0.coords t00) hc _ _ _ _ _ _ _ _ _ _ _ _ (iblk0 V c 0 t00) (iblk0 V c 1 t00) (iblk0 V c 2 t00) (iblk0 V c 3 t00) _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    iexact H4
  · have hc : ¬ cond0 (grid0.coords t) := fun h => ht ((hcond0 t).mp h)
    rw [if_neg (show ¬ (Fin.castSucc t).val = 0 from ht), if_neg (show ¬ (Fin.succ t).val = 0 from Nat.succ_ne_zero _)]
    iintro ⟨⟨⟨Hs, Hrest⟩, Hp⟩, Ho, ⟨%d0, H0⟩, ⟨%d1, H1⟩, ⟨%d2, H2⟩, ⟨%d3, H3⟩, ⟨%d4, H4⟩⟩
    iapply (sound_later c Set.univ (grid0.coords t) hc _ _ _ _ _ _ _ _ _ _ _ _ (iblk0 V c 0 t) (iblk0 V c 1 t) (iblk0 V c 2 t) (iblk0 V c 3 t) (S0 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.BRegion1.lean ====
import proofs.«125266_g63213328662976_cont_sun_m_190_13_alg».proof.Proof.Gen.Kernel.Launch
import proofs.«125266_g63213328662976_cont_sun_m_190_13_alg».proof.Proof.Gen.Kernel.Skeleton
import proofs.«125266_g63213328662976_cont_sun_m_190_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents is decided by structural recursion, once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # The second region (the pass computing z), at the entry contents `V`

At a grid point the body reads a 400-row block of the adjacency matrix, the whole matrix `c`, and a 400-row block of
the noise; it writes the 400-row block  noise * exp(M[:,16:]) + M[:,:16]  of `z`, where  M = adjblock · c . -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block is in its staging buffer at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole matrix `c` is in its staging buffer at every point: it is fetched at the first point, and its block index
    never moves afterwards, so the buffer keeps holding the same (whole) block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The noise block is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store is of a whole buffer -/

abbrev rAdj : Rect S400x10000 := Rect.unit (s := S400x10000) ![0, 0] S400x10000.size inb_S400x10000_S400x10000_0_0
abbrev rC : Rect S10000x32 := Rect.unit (s := S10000x32) ![0, 0] S10000x32.size inb_S10000x32_S10000x32_0_0
abbrev rZ : Rect S400x16 := Rect.unit (s := S400x16) ![0, 0] S400x16.size inb_S400x16_S400x16_0_0

/-! ## What the body leaves in the output window's buffer -/

/-- The `z` block's staging buffer after the body, as a function of the three input blocks: one store, of the whole
    buffer, of the payload evaluated at the three loaded values. -/
def out1_3 (x0 : Vec F S400x10000 .f32) (x1 : Vec F S10000x32 .f32) (x2 : Vec F S400x16 .f32) : Vec F S400x16 .f32 :=
  View.canon [⟨rZ, k1_pay1 (View.ld x0 rAdj) (View.ld x1 rC) (View.ld x2 rZ)⟩]

/-- The one store covers the buffer. -/
theorem cover1_3 (p0 : Vec F S400x16 .f32) (y : S400x16.Idx) :
    ∃ pc ∈ ([⟨rZ, p0⟩] : List (View.Piece (Elt F) S400x16 .f32)), y ∈ pc.1.set :=
  View.cover_of_tiled [⟨rZ, p0⟩] S400x16.size (by rfl) y

/-! ## The body's triple -/

set_option maxHeartbeats 1000000 in
/-- The body on whole staging buffers — the three inputs' at read contents `x0 x1 x2`, the output's at anything — runs to
    the continuation holding the inputs' as they were and the output's at `out1_3 x0 x1 x2`: three whole-buffer loads, a
    load of the output buffer whose value is not used, and one whole-buffer store of the payload of the three loads. -/
theorem sound_kernel1 (c : Dev nD) (E : Set ℕ) (i : grid1.Coords)
    (arg1 : Memref sig .tc .vmem S400x10000 .f32) (harg1 : arg1.IsWhole)
    (arg2 : Memref sig .tc .vmem S10000x32 .f32) (harg2 : arg2.IsWhole)
    (arg3 : Memref sig .tc .vmem S400x16 .f32) (harg3 : arg3.IsWhole)
    (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer still at its block and the output's at `out1_3` of the three input blocks; the invariant is the
    untouched rest of the core's state; nothing is owed; every array is held at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.BRegion2.lean ====
import proofs.«125266_g63213328662976_cont_sun_m_190_13_alg».proof.Proof.Gen.Kernel.Launch
import proofs.«125266_g63213328662976_cont_sun_m_190_13_alg».proof.Proof.Gen.Kernel.Skeleton
import proofs.«125266_g63213328662976_cont_sun_m_190_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents is decided by structural recursion, once per coordinate of the long axes
set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # The third region (the pass computing the edge probabilities), at the entry contents `V`

At a grid point the body reads a 400-row block of `z` and the whole of `z` — two windows on the same array — and writes
the 400-row block  logistic(zblock · zᵀ)  of the result. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of `z` is in its staging buffer at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole of `z` is in its staging buffer at every point: it is fetched at the first point, and its block index
    never moves afterwards, so the buffer keeps holding the same (whole) block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store is of a whole buffer -/

abbrev rZb : Rect S400x16 := Rect.unit (s := S400x16) ![0, 0] S400x16.size inb_S400x16_S400x16_0_0
abbrev rZw : Rect S10000x16 := Rect.unit (s := S10000x16) ![0, 0] S10000x16.size inb_S10000x16_S10000x16_0_0
abbrev rA : Rect S400x10000 := Rect.unit (s := S400x10000) ![0, 0] S400x10000.size inb_S400x10000_S400x10000_0_0

/-! ## What the body leaves in the output window's buffer -/

/-- The result block's staging buffer after the body, as a function of the two input blocks: one store, of the whole
    buffer, of the payload evaluated at the two loaded values. -/
def out2_2 (x0 : Vec F S400x16 .f32) (x1 : Vec F S10000x16 .f32) : Vec F S400x10000 .f32 :=
  View.canon [⟨rA, k2_pay1 (View.ld x0 rZb) (View.ld x1 rZw)⟩]

/-- The one store covers the buffer. -/
theorem cover2_2 (p0 : Vec F S400x10000 .f32) (y : S400x10000.Idx) :
    ∃ pc ∈ ([⟨rA, p0⟩] : List (View.Piece (Elt F) S400x10000 .f32)), y ∈ pc.1.set :=
  View.cover_of_tiled [⟨rA, p0⟩] S400x10000.size (by rfl) y

/-! ## The body's triple -/

set_option maxHeartbeats 1000000 in
/-- The body on whole staging buffers — the two inputs' at read contents `x0 x1`, the output's at anything — runs to the
    continuation holding the inputs' as they were and the output's at `out2_2 x0 x1`: two whole-buffer loads, a load of
    the output buffer whose value is not used, and one whole-buffer store of the payload of the two loads. -/
theorem sound_kernel2 (c : Dev nD) (E : Set ℕ) (i : grid2.Coords)
    (arg1 : Memref sig .tc .vmem S400x16 .f32) (harg1 : arg1.IsWhole)
    (arg2 : Memref sig .tc .vmem S10000x16 .f32) (harg2 : arg2.IsWhole)
    (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass3_kernel i arg1 harg1 arg2 harg2 arg3 harg3) K := by
  simp only [cc2__pass3_kernel_eq_skeleton]; unfold cc2__pass3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    input's buffer still at its block and the output's at `out2_2` of the two input blocks; the invariant is the untouched
    rest of the core's state; nothing is owed. The two input windows read ONE array, so each holds half of it; the
    output's array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares: the two windows on `z` split it, the result's array is whole. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.R2

end
-- ==== Proof.BRunA.lean ====
/-
  The whole program, segment by segment: the host concatenation of the two weight matrices, then the three passes.
  Between two segments the core's unscoped buffers are held at named contents: the launch memory, then what the
  concatenation writes, then after each pass its output array at what the pass's write-backs leave and every other
  buffer as before. The run ends with every unscoped buffer at the last of these contents; each argument array is read
  back through them to its launch contents, and the result array is the third pass's output.
  The third pass reads ONE array through two windows: its full share is dealt in halves to the two windows at entry and
  joined again at exit.
-/
import proofs.«125266_g63213328662976_cont_sun_m_190_13_alg».proof.Proof.Gen.Kernel.Launch
import proofs.«125266_g63213328662976_cont_sun_m_190_13_alg».proof.Proof.Gen.Kernel.Skeleton
import proofs.«125266_g63213328662976_cont_sun_m_190_13_alg».proof.Proof.Gen.Kernel.Points
import proofs.«125266_g63213328662976_cont_sun_m_190_13_alg».proof.Proof.BRegion0
import proofs.«125266_g63213328662976_cont_sun_m_190_13_alg».proof.Proof.BRegion1
import proofs.«125266_g63213328662976_cont_sun_m_190_13_alg».proof.Proof.BRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.R0 Cert.Kernel.R1 Cert.Kernel.R2

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the concatenation (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pass: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pass. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third pass: its output array at what its write-backs leave; the array both its input windows read, and
    every other buffer, as entered. -/
def W4 (c : Dev nD) : Valuation τ sig (Elt F) :=
  Function.update (W3 m ρ c) (Proc.devRef .tc main_v3) ((dat2 (V3 m ρ) c).arrAt 2 cfg2.N)
theorem W4_out (c : Dev nD) : W4 m ρ c (Proc.devRef .tc main_v3) = (dat2 (V3 m ρ) c).arrAt 2 cfg2.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-! ### The arguments end as launched -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- An input window's array leaves the first pass as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (R0.A_eq0 (V1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (R1.A_eq1 (V2 m ρ) c w))

theorem W2_main_arg0 (c : Dev nD) : W2 m ρ c (Proc.devRef .tc main_arg0) = m ((c : Thread nD τ).loc main_arg0) :=
  (W2_in m ρ c 1 rfl).trans (W1_main_arg0 m ρ c)
theorem W2_main_arg1 (c : Dev nD) : W2 m ρ c (Proc.devRef .tc main_arg1) = m ((c : Thread nD τ).loc main_arg1) :=
  (W2_in m ρ c 0 rfl).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_in m ρ c 2 rfl).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_in m ρ c 0 rfl).trans (W2_main_arg1 m ρ c)
theorem W3_main_arg2 (c : Dev nD) : W3 m ρ c (Proc.devRef .tc main_arg2) = m ((c : Thread nD τ).loc main_arg2) :=
  (W3_in m ρ c 2 rfl).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)

theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

/-! ## The proof data family and the thread state -/

abbrev adm : (p : Fin 3) → (pcfgs (F := F) p).Adm := fun p => (cfgs p).toPCfg_adm
/-- Every pass's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- THE FIRST PASS: entered from every unscoped buffer at `W1`, left at `W2`. The carried buffer enters the invariant
    at anything (it is one of the core's scoped buffers) and leaves it holding x · W0, which is then forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = R0.Φ0 (V1 m ρ) c 0 from rfl]; unfold R0.Φ0 R0.scrAt
    rw [if_pos (show ((0 : Fin (cfg0.N + 1))).val = 0 from rfl)]
    iintro ⟨Hp, -, Hr⟩
    ihave Hr' := (Entails.of_eq (R0.scopedRest0_split (F := F) c)) $$ Hr
    icases Hr' with ⟨Hs, Hrest⟩
    isplitl [Hs Hrest]
    · isplitl [Hs]; · iexact Hs
      iexact Hrest
    iexact Hp
  hout c := by
    rw [Pipeline.ownSems0_none, show (pdats m ρ 0 c).Φ (Fin.last _) = R0.Φ0 (V1 m ρ) c (Fin.last _) from rfl]; unfold R0.Φ0 R0.scrAt
    rw [if_neg (show ¬ (Fin.last cfg0.N).val = 0 from by decide)]
    iintro ⟨⟨Hs, Hrest⟩, Hp⟩
    isplitl [Hp]; · iexact Hp
    isplitr; · iempintro
    iapply (Entails.of_eq (R0.scopedRest0_split (F := F) c).symm)
    isplitl [Hs]; · iexists _; iexact Hs
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PASS: entered from `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.BRunB.lean ====
/-
  The third pass as a segment, and the run of the whole program. The third pass reads the array z through two windows
  (a 400-row block and the whole): at its entry the array's full share is dealt in halves to the two windows, at its
  exit the halves are joined; its output array is the program's result.
-/
import proofs.«125266_g63213328662976_cont_sun_m_190_13_alg».proof.Proof.Gen.Kernel.Launch
import proofs.«125266_g63213328662976_cont_sun_m_190_13_alg».proof.Proof.Gen.Kernel.Skeleton
import proofs.«125266_g63213328662976_cont_sun_m_190_13_alg».proof.Proof.Gen.Kernel.Points
import proofs.«125266_g63213328662976_cont_sun_m_190_13_alg».proof.Proof.BRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.R0 Cert.Kernel.R1 Cert.Kernel.R2

variable (m : (ℓ : Loc nD τ sig) → Buf (Elt F) ℓ) (ρ : Dev nD → PrngReg)

/-! ## The third pass's arrays, window by window, and the two buffers behind them -/

theorem share2_0 (Vp) (c : Dev nD) : (dat2 (F := F) Vp c).share 0 = fullShare.left := by
  unfold Pipeline.Dat.share; rw [R2.q2_0]; rfl
theorem share2_1 (Vp) (c : Dev nD) : (dat2 (F := F) Vp c).share 1 = fullShare.right := by
  unfold Pipeline.Dat.share; rw [R2.q2_1]; rfl
theorem share2_2 (Vp) (c : Dev nD) : (dat2 (F := F) Vp c).share 2 = fullShare := by
  unfold Pipeline.Dat.share; rfl

theorem arrays2 (Vp) (c : Dev nD) (Fa : (w : Fin cfg2.W) → Buf (Elt F) ((cfg2.win w).arr.view.loc (c : Thread nD τ))) :
    ((dat2 (F := F) Vp c).arrays Fa : sProp 𝕄)
      = iprop((((c : Thread nD τ).loc main_v2) ↦{fullShare.left} Fa 0) ∗ (((c : Thread nD τ).loc main_v2) ↦{fullShare.right} Fa 1)
          ∗ (((c : Thread nD τ).loc main_v3) ↦{fullShare} Fa 2)) := by
  unfold Pipeline.Dat.arrays
  rw [bigSep_W2, (arr_whole2 0).set_eq_univ, (arr_whole2 2).set_eq_univ, share2_0, share2_1, share2_2]

theorem arrBufs2 (c : Dev nD) (Vv : (b : Ref sig .tc) → Buf (Elt F) ((c : Thread nD τ).loc b)) :
    (Pipeline.arrBufs (Ix := Unit) (Name := ℕ) (U := UR sig nD τ) (Lvl := ℕ) spec2 c Vv : sProp 𝕄)
      = iprop((((c : Thread nD τ).loc main_v2) ↦{fullShare} Vv main_v2) ∗ (((c : Thread nD τ).loc main_v3) ↦{fullShare} Vv main_v3)) := by
  unfold Pipeline.arrBufs
  rw [show Finset.univ.image (Pipeline.arrRef spec2) = {main_v2, main_v3} from by decide,
    bigSep_insert (by decide), bigSep_singleton]
  rfl

/-- ENTRY: the core's unscoped buffers at `W3` are the third pass's arrays at its entry contents — the array z in two
    halves — and the unscoped rest. -/
theorem entry2 (c : Dev nD) :
    (StableHlo.held (c : Thread nD τ) (Pipeline.ucRefs τ sig) (W3 m ρ c) : sProp 𝕄)
      ⊢ iprop((pdats m ρ 2 c).arrays ((pdats m ρ 2 c).arrAt · 0)
          ∗ Pipeline.unscopedRest (Ix := Unit) (Name := ℕ) (U := UR sig nD τ) (Lvl := ℕ) spec2 c (V3 m ρ c)) := by
  have hsplit : (unscopedBufs c (V3 m ρ c) : sProp 𝕄) ⊢ iprop((pdats m ρ 2 c).arrays ((pdats m ρ 2 c).arrAt · 0)
      ∗ Pipeline.unscopedRest (Ix := Unit) (Name := ℕ) (U := UR sig nD τ) (Lvl := ℕ) spec2 c (V3 m ρ c)) := by
    rw [Pipeline.unscopedBufs_split₀ (Pipeline.pin (pcfgs (F := F)) adm) 2 winFacts₀2.arr_unscoped c (V3 m ρ c)]
    refine sep_mono ?_ .rfl
    rw [show (pdats m ρ 2 c) = dat2 (V3 m ρ) c from rfl, arrays2]
    refine (Entails.of_eq (arrBufs2 c (V3 m ρ c))).trans ?_
    iintro ⟨H2, H3⟩
    ihave H := (pointsTo_share (PosShare.mem_left_op_right fullShare)).1 $$ H2
    icases H with ⟨Hl, Hr⟩
    isplitl [Hl]; · iexact Hl
    isplitl [Hr]; · iexact Hr
    iexact H3
  rw [Pipeline.unscopedBufs_held] at hsplit
  exact hsplit

/-- EXIT: the halves of z joined, the output array at what the write-backs leave, the rest as entered: the core's
    unscoped buffers at `W4`. -/
theorem exit2 (c : Dev nD) :
    iprop((pdats m ρ 2 c).arrays ((pdats m ρ 2 c).arrAt · cfg2.N)
        ∗ Pipeline.unscopedRest (Ix := Unit) (Name := ℕ) (U := UR sig nD τ) (Lvl := ℕ) spec2 c (V3 m ρ c))
      ⊢ (StableHlo.held (c : Thread nD τ) (Pipeline.ucRefs τ sig) (W4 m ρ c) : sProp 𝕄) := by
  have hjoin : iprop((pdats m ρ 2 c).arrays ((pdats m ρ 2 c).arrAt · cfg2.N)
        ∗ Pipeline.unscopedRest (Ix := Unit) (Name := ℕ) (U := UR sig nD τ) (Lvl := ℕ) spec2 c (V3 m ρ c))
      ⊢ (unscopedBufs c (V4 m ρ c) : sProp 𝕄) := by
    rw [Pipeline.unscopedBufs_split₀ (Pipeline.pin (pcfgs (F := F)) adm) 2 winFacts₀2.arr_unscoped c (V4 m ρ c)]
    refine sep_mono ?_ (Entails.of_eq ?_)
    · rw [show (pdats m ρ 2 c) = dat2 (V3 m ρ) c from rfl, arrays2]
      refine BIBase.Entails.trans ?_ (Entails.of_eq (arrBufs2 c (V4 m ρ c)).symm)
      have h0 : (dat2 (V3 m ρ) c).arrAt 0 cfg2.N = V4 m ρ c main_v2 :=
        (((dat2 (V3 m ρ) c).arrAt_in 0 rfl _).trans (R2.A_eq2 (V3 m ρ) c 0)).trans (W4_of_ne m ρ c main_v2 (by decide)).symm
      have h1 : (dat2 (V3 m ρ) c).arrAt 1 cfg2.N = V4 m ρ c main_v2 :=
        (((dat2 (V3 m ρ) c).arrAt_in 1 rfl _).trans (R2.A_eq2 (V3 m ρ) c 1)).trans (W4_of_ne m ρ c main_v2 (by decide)).symm
      have h2 : (dat2 (V3 m ρ) c).arrAt 2 cfg2.N = V4 m ρ c main_v3 := (W4_out m ρ c).symm
      rw [h0, h1, h2]
      iintro ⟨Hl, Hr, H3⟩
      isplitl [Hl Hr]
      · iapply (pointsTo_share (PosShare.mem_left_op_right fullShare)).2
        isplitl [Hl] <;> iassumption
      iexact H3
    · unfold Pipeline.unscopedRest
      exact bigSep_congr fun b hb => by
        rw [show V4 m ρ c b = V3 m ρ c b from W4_of_ne m ρ c b fun e =>
          (Finset.mem_sdiff.mp hb).2 (e ▸ Finset.mem_image.mpr ⟨2, Finset.mem_univ _, rfl⟩)]
  rw [Pipeline.unscopedBufs_held] at hjoin
  exact hjoin

set_option backward.isDefEq.respectTransparency.types false in
/-- THE THIRD PASS: entered from `W3`, left at `W4`, which the launch reads at the end. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m ρ c); isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state has each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

/-- THE RESULT beside the frame: the result array ends at the third pass's output array after its write-backs. -/
theorem run_result : θ_run defs (onTc (τ := τ) (main (F := F))) ⟨m, fun _ => 0, ρ⟩ (fun r => ∀ c : Dev nD,
      r.2.mem ((c.tc : Thread nD τ).loc main_v3) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.Kernel.Run

end
-- ==== Proof.Region0.lean ====
/-
  The first of the three passes, point by point: c = relu(adj · t0) · [W_mu | W_logstd] on a grid of 25 row blocks of 400,
  where t0 = x · W0 is computed once, at the grid's first point, into a buffer that every later point reads again.
  What each point leaves: the 400 × 32 output block is the body's arithmetic of that point's block of adj, of the
  carried buffer and of the concatenated weights; the carried buffer holds x · W0 after the first point and is not
  written again. Stated at any float instance and at any contents `V` of the core's buffers at the pass's entry.
-/
import proofs.«125266_g63213328662976_cont_sun_m_190_13_alg».proof.Proof.Gen.KernelIdeal.Launch
import proofs.«125266_g63213328662976_cont_sun_m_190_13_alg».proof.Proof.Gen.KernelIdeal.Skeleton
import proofs.«125266_g63213328662976_cont_sun_m_190_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry array at every point, fetched there or not
    (an unfetched point has the block index of the point before it). -/
theorem before0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry array at every point, fetched there or not
    (an unfetched point has the block index of the point before it). -/
theorem before1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry array at every point, fetched there or not
    (an unfetched point has the block index of the point before it). -/
theorem before2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry array at every point, fetched there or not
    (an unfetched point has the block index of the point before it). -/
theorem before3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rAdj : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rW0 : Rect S128x32 := Rect.unit (s := S128x32) ![0, 0] S128x32.size inb_S128x32_S128x32_0_0
abbrev rWc : Rect S32x32 := Rect.unit (s := S32x32) ![0, 0] S32x32.size inb_S32x32_S32x32_0_0
abbrev rOut : Rect S400x32 := Rect.unit (s := S400x32) ![0, 0] S400x32.size inb_S400x32_S400x32_0_0
abbrev rScr : Rect S10000x32 := Rect.unit (s := S10000x32) ![0, 0] S10000x32.size inb_S10000x32_S10000x32_0_0

/-- The body's one branch condition, from the grid coordinate: "this is the first point". -/
abbrev cond0 (i : grid0.Coords) : Prop := (Scalar.cmpi .ne (Scalar.extui (Scalar.cmpi .eq (BitVec.ofNat 32 (i 0).val) 0#32)) 0#32) = 1#1
/-- It holds at point 0 and nowhere else (decided over the 25 points). -/
theorem hcond0 : ∀ t : Fin cfg0.N, cond0 (grid0.coords t) ↔ t.val = 0 :=
  (by decide +kernel : ∀ t : Fin grid0.N, cond0 (grid0.coords t) ↔ t.val = 0)

/-- What the first point stores into the carried buffer: x · W0 of the two whole operands. -/
def scr (x : Vec F S10000x128 .f32) (w0 : Vec F S128x32 .f32) : Vec F S10000x32 .f32 :=
  View.canon [⟨rScr, k0_pay1 (View.ld x rX) (View.ld w0 rW0)⟩]

/-- What a point stores into the output block: relu(a · s) · wc of its block `a` of adj, the carried buffer `s`
    and the concatenated weights `wc`. -/
def outC (a : Vec F S400x10000 .f32) (s : Vec F S10000x32 .f32) (wc : Vec F S32x32 .f32) : Vec F S400x32 .f32 :=
  View.canon [⟨rOut, k0_pay2 (View.ld a rAdj) (View.ld s rScr) (View.ld wc rWc)⟩]

theorem coverScr (p0 : Vec F S10000x32 .f32) (y : S10000x32.Idx) :
    ∃ pc ∈ ([⟨rScr, p0⟩] : List (View.Piece (Elt F) S10000x32 .f32)), y ∈ pc.1.set :=
  View.cover_of_tiled [⟨rScr, p0⟩] S10000x32.size (by rfl) y
theorem coverOut (p0 : Vec F S400x32 .f32) (y : S400x32.Idx) :
    ∃ pc ∈ ([⟨rOut, p0⟩] : List (View.Piece (Elt F) S400x32 .f32)), y ∈ pc.1.set :=
  View.cover_of_tiled [⟨rOut, p0⟩] S400x32.size (by rfl) y

/-! ## The body's triple, once per control case -/

set_option maxHeartbeats 1000000 in
/-- AT THE FIRST POINT the body fills the carried buffer with x · W0 and then computes the output block from it. -/
theorem sound_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S10000x32 .f32) (harg6 : arg6.IsWhole)
    (xa : Vec F S400x10000 .f32) (xx : Vec F S10000x128 .f32) (xw : Vec F S128x32 .f32) (xc : Vec F S32x32 .f32) (K : PUnit → sProp 𝕄) :
    iprop(owns (c : Thread nD τ) arg1 fullShare xa ∗ owns (c : Thread nD τ) arg2 fullShare xx ∗ owns (c : Thread nD τ) arg3 fullShare xw
        ∗ owns (c : Thread nD τ) arg4 fullShare xc ∗ (∃ d, owns (c : Thread nD τ) arg5 fullShare d) ∗ (∃ d, owns (c : Thread nD τ) arg6 fullShare d)
        ∗ (iprop(owns (c : Thread nD τ) arg1 fullShare xa ∗ owns (c : Thread nD τ) arg2 fullShare xx ∗ owns (c : Thread nD τ) arg3 fullShare xw
            ∗ owns (c : Thread nD τ) arg4 fullShare xc ∗ owns (c : Thread nD τ) arg5 fullShare (outC xa (scr xx xw) xc)
            ∗ owns (c : Thread nD τ) arg6 fullShare (scr xx xw)) -∗ K ⟨⟩))
      ⊢ wp frame (wpE (defs₀ (F := F)) Variants.none c none) E (cc0__pass1_kernel i arg1 harg1 arg2 harg2 arg3 harg3 arg4 harg4 arg5 harg5 arg6 harg6) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    dsimp only [sound_first.sl.v4, sound_first.sl.H6_1]
    rw [View.readCov_eq_canon_ld _ _ _ (coverScr _)]
    exact View.read_writes_eq_canon _ _ _ (coverOut _)
  · iexists _; isplitr
    swap; · iexact H6
    ipureintro
    dsimp only [sound_first.sl.H6_1]
    exact View.read_writes_eq_canon _ _ _ (coverScr _)

set_option maxHeartbeats 1000000 in
/-- AT EVERY LATER POINT the body only reads the carried buffer, which it hands back as it found it. -/
theorem sound_later (c : Dev nD) (E : Set ℕ) (i : grid0.Coords) (hc : ¬ cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S10000x32 .f32) (harg6 : arg6.IsWhole)
    (xa : Vec F S400x10000 .f32) (xx : Vec F S10000x128 .f32) (xw : Vec F S128x32 .f32) (xc : Vec F S32x32 .f32) (xs : Vec F S10000x32 .f32) (K : PUnit → sProp 𝕄) :
    iprop(owns (c : Thread nD τ) arg1 fullShare xa ∗ owns (c : Thread nD τ) arg2 fullShare xx ∗ owns (c : Thread nD τ) arg3 fullShare xw
        ∗ owns (c : Thread nD τ) arg4 fullShare xc ∗ (∃ d, owns (c : Thread nD τ) arg5 fullShare d) ∗ owns (c : Thread nD τ) arg6 fullShare xs
        ∗ (iprop(owns (c : Thread nD τ) arg1 fullShare xa ∗ owns (c : Thread nD τ) arg2 fullShare xx ∗ owns (c : Thread nD τ) arg3 fullShare xw
            ∗ owns (c : Thread nD τ) arg4 fullShare xc ∗ owns (c : Thread nD τ) arg5 fullShare (outC xa xs xc)
            ∗ owns (c : Thread nD τ) arg6 fullShare xs) -∗ K ⟨⟩))
      ⊢ wp frame (wpE (defs₀ (F := F)) Variants.none c none) E (cc0__pass1_kernel i arg1 harg1 arg2 harg2 arg3 harg3 arg4 harg4 arg5 harg5 arg6 harg6) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverOut _)
  · iexists f6; isplitr; · ipureintro; rfl
    iexact H6

/-! ## The invariant between points: the carried buffer, the core's other scoped buffers, the generator register -/

/-- The carried buffer as the body is handed it. -/
abbrev scM : Memref sig .tc .vmem S10000x32 .f32 := Memref.whole cc0_scratch0

/-- The first grid point. -/
def t00 : Fin cfg0.N := ⟨0, by decide⟩

/-- What the carried buffer holds from the first point on: x · W0 of the two whole arrays as the pass finds them. -/
def S0 (c : Dev nD) : Vec F S10000x32 .f32 := scr (iblk0 V c 1 t00) (iblk0 V c 2 t00)

/-- The core's scoped buffers that this pass neither stages nor carries, each whole at some contents. -/
def restNoScr (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ restNoScr c) := by
  rw [scopedRest0_eq]; unfold restNoScr; simp only [scM, owns_whole]; rfl

/-- The carried buffer before point `t`: anything before the first point, x · W0 afterwards. -/
def scrAt (c : Dev nD) (t : Fin (cfg0.N + 1)) : sProp 𝕄 :=
  if t.val = 0 then iprop(∃ d, owns (c : Thread nD τ) scM fullShare d) else owns (c : Thread nD τ) scM fullShare (S0 V c)

/-- The invariant before point `t`. -/
def Φ0 (c : Dev nD) (t : Fin (cfg0.N + 1)) : sProp 𝕄 :=
  iprop((scrAt V c t ∗ restNoScr c) ∗ ∃ r, prngReg c r)

/-! ## The proof data -/

/-- The arrays as the pass finds them; after the body at point `t` each input's buffer at its block and the output's at
    the body's arithmetic of the point's block of adj, x · W0 and the weights; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outC (iblk0 V c 0 t) (S0 V c) (iblk0 V c 3 t)
  Φ t := Φ0 V c t
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Φ0 V c t := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outC (iblk0 V c 0 t) (S0 V c) (iblk0 V c 3 t) := by dsimp only [dat0]

theorem before0_0 (c : Dev nD) (t : Fin cfg0.N) (d) : (dat0 V c).before 0 t d = iblk0 V c 0 t :=
  before0_of V (dat0 V c) (A_eq0 V c 0) (after0_0 V c) t d
theorem before0_1 (c : Dev nD) (t : Fin cfg0.N) (d) : (dat0 V c).before 1 t d = iblk0 V c 1 t :=
  before1_of V (dat0 V c) (A_eq0 V c 1) (after0_1 V c) t d
theorem before0_2 (c : Dev nD) (t : Fin cfg0.N) (d) : (dat0 V c).before 2 t d = iblk0 V c 2 t :=
  before2_of V (dat0 V c) (A_eq0 V c 2) (after0_2 V c) t d
theorem before0_3 (c : Dev nD) (t : Fin cfg0.N) (d) : (dat0 V c).before 3 t d = iblk0 V c 3 t :=
  before3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point, by the two control cases. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, Phi_eq0, Phi_eq0]
  unfold Φ0 scrAt
  by_cases ht : t.val = 0
  · have hc : cond0 (grid0.coords t) := (hcond0 t).mpr ht
    obtain rfl : t = t00 := Fin.ext ht
    rw [if_pos (show (Fin.castSucc t00).val = 0 from rfl), if_neg (show ¬ (Fin.succ t00).val = 0 from Nat.succ_ne_zero _)]
    iintro ⟨⟨⟨⟨%ds, Hs⟩, Hrest⟩, Hp⟩, Ho, ⟨%d0, H0⟩, ⟨%d1, H1⟩, ⟨%d2, H2⟩, ⟨%d3, H3⟩, ⟨%d4, H4⟩⟩
    iapply (sound_first c Set.univ (grid0.coords t00) hc _ _ _ _ _ _ _ _ _ _ _ _ (iblk0 V c 0 t00) (iblk0 V c 1 t00) (iblk0 V c 2 t00) (iblk0 V c 3 t00) _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    iexact H4
  · have hc : ¬ cond0 (grid0.coords t) := fun h => ht ((hcond0 t).mp h)
    rw [if_neg (show ¬ (Fin.castSucc t).val = 0 from ht), if_neg (show ¬ (Fin.succ t).val = 0 from Nat.succ_ne_zero _)]
    iintro ⟨⟨⟨Hs, Hrest⟩, Hp⟩, Ho, ⟨%d0, H0⟩, ⟨%d1, H1⟩, ⟨%d2, H2⟩, ⟨%d3, H3⟩, ⟨%d4, H4⟩⟩
    iapply (sound_later c Set.univ (grid0.coords t) hc _ _ _ _ _ _ _ _ _ _ _ _ (iblk0 V c 0 t) (iblk0 V c 1 t) (iblk0 V c 2 t) (iblk0 V c 3 t) (S0 V c) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hrest Hp]
    · isplitl [Hs Hrest]
      · isplitl [Hs]; · iexact Hs
        iexact Hrest
      iexact Hp
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1.lean ====
import proofs.«125266_g63213328662976_cont_sun_m_190_13_alg».proof.Proof.Gen.KernelIdeal.Launch
import proofs.«125266_g63213328662976_cont_sun_m_190_13_alg».proof.Proof.Gen.KernelIdeal.Skeleton
import proofs.«125266_g63213328662976_cont_sun_m_190_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents is decided by structural recursion, once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # The second region (the pass computing z), at the entry contents `V`

At a grid point the body reads a 400-row block of the adjacency matrix, the whole matrix `c`, and a 400-row block of
the noise; it writes the 400-row block  noise * exp(M[:,16:]) + M[:,:16]  of `z`, where  M = adjblock · c . -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block is in its staging buffer at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole matrix `c` is in its staging buffer at every point: it is fetched at the first point, and its block index
    never moves afterwards, so the buffer keeps holding the same (whole) block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The noise block is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store is of a whole buffer -/

abbrev rAdj : Rect S400x10000 := Rect.unit (s := S400x10000) ![0, 0] S400x10000.size inb_S400x10000_S400x10000_0_0
abbrev rC : Rect S10000x32 := Rect.unit (s := S10000x32) ![0, 0] S10000x32.size inb_S10000x32_S10000x32_0_0
abbrev rZ : Rect S400x16 := Rect.unit (s := S400x16) ![0, 0] S400x16.size inb_S400x16_S400x16_0_0

/-! ## What the body leaves in the output window's buffer -/

/-- The `z` block's staging buffer after the body, as a function of the three input blocks: one store, of the whole
    buffer, of the payload evaluated at the three loaded values. -/
def out1_3 (x0 : Vec F S400x10000 .f32) (x1 : Vec F S10000x32 .f32) (x2 : Vec F S400x16 .f32) : Vec F S400x16 .f32 :=
  View.canon [⟨rZ, k1_pay1 (View.ld x0 rAdj) (View.ld x1 rC) (View.ld x2 rZ)⟩]

/-- The one store covers the buffer. -/
theorem cover1_3 (p0 : Vec F S400x16 .f32) (y : S400x16.Idx) :
    ∃ pc ∈ ([⟨rZ, p0⟩] : List (View.Piece (Elt F) S400x16 .f32)), y ∈ pc.1.set :=
  View.cover_of_tiled [⟨rZ, p0⟩] S400x16.size (by rfl) y

/-! ## The body's triple -/

set_option maxHeartbeats 1000000 in
/-- The body on whole staging buffers — the three inputs' at read contents `x0 x1 x2`, the output's at anything — runs to
    the continuation holding the inputs' as they were and the output's at `out1_3 x0 x1 x2`: three whole-buffer loads, a
    load of the output buffer whose value is not used, and one whole-buffer store of the payload of the three loads. -/
theorem sound_kernel1 (c : Dev nD) (E : Set ℕ) (i : grid1.Coords)
    (arg1 : Memref sig .tc .vmem S400x10000 .f32) (harg1 : arg1.IsWhole)
    (arg2 : Memref sig .tc .vmem S10000x32 .f32) (harg2 : arg2.IsWhole)
    (arg3 : Memref sig .tc .vmem S400x16 .f32) (harg3 : arg3.IsWhole)
    (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`: the arrays as the region finds them; after the body at point `t` each
    input's buffer still at its block and the output's at `out1_3` of the three input blocks; the invariant is the
    untouched rest of the core's state; nothing is owed; every array is held at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Region2.lean ====
import proofs.«125266_g63213328662976_cont_sun_m_190_13_alg».proof.Proof.Gen.KernelIdeal.Launch
import proofs.«125266_g63213328662976_cont_sun_m_190_13_alg».proof.Proof.Gen.KernelIdeal.Skeleton
import proofs.«125266_g63213328662976_cont_sun_m_190_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents is decided by structural recursion, once per coordinate of the long axes
set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: everything below is stated at this parameter
variable (V : (c : Dev nD) → (b : Ref sig .tc) → Buf (Elt F) ((c : Thread nD τ).loc b))

/-! # The third region (the pass computing the edge probabilities), at the entry contents `V`

At a grid point the body reads a 400-row block of `z` and the whole of `z` — two windows on the same array — and writes
the 400-row block  logistic(zblock · zᵀ)  of the result. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of `z` is in its staging buffer at every point (it is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole of `z` is in its staging buffer at every point: it is fetched at the first point, and its block index
    never moves afterwards, so the buffer keeps holding the same (whole) block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store is of a whole buffer -/

abbrev rZb : Rect S400x16 := Rect.unit (s := S400x16) ![0, 0] S400x16.size inb_S400x16_S400x16_0_0
abbrev rZw : Rect S10000x16 := Rect.unit (s := S10000x16) ![0, 0] S10000x16.size inb_S10000x16_S10000x16_0_0
abbrev rA : Rect S400x10000 := Rect.unit (s := S400x10000) ![0, 0] S400x10000.size inb_S400x10000_S400x10000_0_0

/-! ## What the body leaves in the output window's buffer -/

/-- The result block's staging buffer after the body, as a function of the two input blocks: one store, of the whole
    buffer, of the payload evaluated at the two loaded values. -/
def out2_2 (x0 : Vec F S400x16 .f32) (x1 : Vec F S10000x16 .f32) : Vec F S400x10000 .f32 :=
  View.canon [⟨rA, k2_pay1 (View.ld x0 rZb) (View.ld x1 rZw)⟩]

/-- The one store covers the buffer. -/
theorem cover2_2 (p0 : Vec F S400x10000 .f32) (y : S400x10000.Idx) :
    ∃ pc ∈ ([⟨rA, p0⟩] : List (View.Piece (Elt F) S400x10000 .f32)), y ∈ pc.1.set :=
  View.cover_of_tiled [⟨rA, p0⟩] S400x10000.size (by rfl) y

/-! ## The body's triple -/

set_option maxHeartbeats 1000000 in
/-- The body on whole staging buffers — the two inputs' at read contents `x0 x1`, the output's at anything — runs to the
    continuation holding the inputs' as they were and the output's at `out2_2 x0 x1`: two whole-buffer loads, a load of
    the output buffer whose value is not used, and one whole-buffer store of the payload of the two loads. -/
theorem sound_kernel2 (c : Dev nD) (E : Set ℕ) (i : grid2.Coords)
    (arg1 : Memref sig .tc .vmem S400x16 .f32) (harg1 : arg1.IsWhole)
    (arg2 : Memref sig .tc .vmem S10000x16 .f32) (harg2 : arg2.IsWhole)
    (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass3_kernel i arg1 harg1 arg2 harg2 arg3 harg3) K := by
  simp only [cc2__pass3_kernel_eq_skeleton]; unfold cc2__pass3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    input's buffer still at its block and the output's at `out2_2` of the two input blocks; the invariant is the untouched
    rest of the core's state; nothing is owed. The two input windows read ONE array, so each holds half of it; the
    output's array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- The shares: the two windows on `z` split it, the result's array is whole. -/
theorem q2_0 (c : Dev nD) : (dat2 V c).q 0 = fullShare.left := by dsimp only [dat2]
theorem q2_1 (c : Dev nD) : (dat2 V c).q 1 = fullShare.right := by dsimp only [dat2]
theorem q2_2 (c : Dev nD) : (dat2 V c).q 2 = fullShare := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.R2

end
-- ==== Proof.RunA.lean ====
/-
  The whole program, segment by segment: the host concatenation of the two weight matrices, then the three passes.
  Between two segments the core's unscoped buffers are held at named contents: the launch memory, then what the
  concatenation writes, then after each pass its output array at what the pass's write-backs leave and every other
  buffer as before. The run ends with every unscoped buffer at the last of these contents; each argument array is read
  back through them to its launch contents, and the result array is the third pass's output.
  The third pass reads ONE array through two windows: its full share is dealt in halves to the two windows at entry and
  joined again at exit.
-/
import proofs.«125266_g63213328662976_cont_sun_m_190_13_alg».proof.Proof.Gen.KernelIdeal.Launch
import proofs.«125266_g63213328662976_cont_sun_m_190_13_alg».proof.Proof.Gen.KernelIdeal.Skeleton
import proofs.«125266_g63213328662976_cont_sun_m_190_13_alg».proof.Proof.Gen.KernelIdeal.Points
import proofs.«125266_g63213328662976_cont_sun_m_190_13_alg».proof.Proof.Region0
import proofs.«125266_g63213328662976_cont_sun_m_190_13_alg».proof.Proof.Region1
import proofs.«125266_g63213328662976_cont_sun_m_190_13_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.R0 Cert.KernelIdeal.R1 Cert.KernelIdeal.R2

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the concatenation (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pass: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second pass. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third pass: its output array at what its write-backs leave; the array both its input windows read, and
    every other buffer, as entered. -/
def W4 (c : Dev nD) : Valuation τ sig (Elt F) :=
  Function.update (W3 m ρ c) (Proc.devRef .tc main_v3) ((dat2 (V3 m ρ) c).arrAt 2 cfg2.N)
theorem W4_out (c : Dev nD) : W4 m ρ c (Proc.devRef .tc main_v3) = (dat2 (V3 m ρ) c).arrAt 2 cfg2.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-! ### The arguments end as launched -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W1_main_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- An input window's array leaves the first pass as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (R0.A_eq0 (V1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (R1.A_eq1 (V2 m ρ) c w))

theorem W2_main_arg0 (c : Dev nD) : W2 m ρ c (Proc.devRef .tc main_arg0) = m ((c : Thread nD τ).loc main_arg0) :=
  (W2_in m ρ c 1 rfl).trans (W1_main_arg0 m ρ c)
theorem W2_main_arg1 (c : Dev nD) : W2 m ρ c (Proc.devRef .tc main_arg1) = m ((c : Thread nD τ).loc main_arg1) :=
  (W2_in m ρ c 0 rfl).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_in m ρ c 2 rfl).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_in m ρ c 0 rfl).trans (W2_main_arg1 m ρ c)
theorem W3_main_arg2 (c : Dev nD) : W3 m ρ c (Proc.devRef .tc main_arg2) = m ((c : Thread nD τ).loc main_arg2) :=
  (W3_in m ρ c 2 rfl).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)

theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

/-! ## The proof data family and the thread state -/

abbrev adm : (p : Fin 3) → (pcfgs (F := F) p).Adm := fun p => (cfgs p).toPCfg_adm
/-- Every pass's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- THE FIRST PASS: entered from every unscoped buffer at `W1`, left at `W2`. The carried buffer enters the invariant
    at anything (it is one of the core's scoped buffers) and leaves it holding x · W0, which is then forgotten. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = R0.Φ0 (V1 m ρ) c 0 from rfl]; unfold R0.Φ0 R0.scrAt
    rw [if_pos (show ((0 : Fin (cfg0.N + 1))).val = 0 from rfl)]
    iintro ⟨Hp, -, Hr⟩
    ihave Hr' := (Entails.of_eq (R0.scopedRest0_split (F := F) c)) $$ Hr
    icases Hr' with ⟨Hs, Hrest⟩
    isplitl [Hs Hrest]
    · isplitl [Hs]; · iexact Hs
      iexact Hrest
    iexact Hp
  hout c := by
    rw [Pipeline.ownSems0_none, show (pdats m ρ 0 c).Φ (Fin.last _) = R0.Φ0 (V1 m ρ) c (Fin.last _) from rfl]; unfold R0.Φ0 R0.scrAt
    rw [if_neg (show ¬ (Fin.last cfg0.N).val = 0 from by decide)]
    iintro ⟨⟨Hs, Hrest⟩, Hp⟩
    isplitl [Hp]; · iexact Hp
    isplitr; · iempintro
    iapply (Entails.of_eq (R0.scopedRest0_split (F := F) c).symm)
    isplitl [Hs]; · iexists _; iexact Hs
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PASS: entered from `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.RunB.lean ====
/-
  The third pass as a segment, and the run of the whole program. The third pass reads the array z through two windows
  (a 400-row block and the whole): at its entry the array's full share is dealt in halves to the two windows, at its
  exit the halves are joined; its output array is the program's result.
-/
import proofs.«125266_g63213328662976_cont_sun_m_190_13_alg».proof.Proof.Gen.KernelIdeal.Launch
import proofs.«125266_g63213328662976_cont_sun_m_190_13_alg».proof.Proof.Gen.KernelIdeal.Skeleton
import proofs.«125266_g63213328662976_cont_sun_m_190_13_alg».proof.Proof.Gen.KernelIdeal.Points
import proofs.«125266_g63213328662976_cont_sun_m_190_13_alg».proof.Proof.RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.R0 Cert.KernelIdeal.R1 Cert.KernelIdeal.R2

variable (m : (ℓ : Loc nD τ sig) → Buf (Elt F) ℓ) (ρ : Dev nD → PrngReg)

/-! ## The third pass's arrays, window by window, and the two buffers behind them -/

theorem share2_0 (Vp) (c : Dev nD) : (dat2 (F := F) Vp c).share 0 = fullShare.left := by
  unfold Pipeline.Dat.share; rw [R2.q2_0]; rfl
theorem share2_1 (Vp) (c : Dev nD) : (dat2 (F := F) Vp c).share 1 = fullShare.right := by
  unfold Pipeline.Dat.share; rw [R2.q2_1]; rfl
theorem share2_2 (Vp) (c : Dev nD) : (dat2 (F := F) Vp c).share 2 = fullShare := by
  unfold Pipeline.Dat.share; rfl

theorem arrays2 (Vp) (c : Dev nD) (Fa : (w : Fin cfg2.W) → Buf (Elt F) ((cfg2.win w).arr.view.loc (c : Thread nD τ))) :
    ((dat2 (F := F) Vp c).arrays Fa : sProp 𝕄)
      = iprop((((c : Thread nD τ).loc main_v2) ↦{fullShare.left} Fa 0) ∗ (((c : Thread nD τ).loc main_v2) ↦{fullShare.right} Fa 1)
          ∗ (((c : Thread nD τ).loc main_v3) ↦{fullShare} Fa 2)) := by
  unfold Pipeline.Dat.arrays
  rw [bigSep_W2, (arr_whole2 0).set_eq_univ, (arr_whole2 2).set_eq_univ, share2_0, share2_1, share2_2]

theorem arrBufs2 (c : Dev nD) (Vv : (b : Ref sig .tc) → Buf (Elt F) ((c : Thread nD τ).loc b)) :
    (Pipeline.arrBufs (Ix := Unit) (Name := ℕ) (U := UR sig nD τ) (Lvl := ℕ) spec2 c Vv : sProp 𝕄)
      = iprop((((c : Thread nD τ).loc main_v2) ↦{fullShare} Vv main_v2) ∗ (((c : Thread nD τ).loc main_v3) ↦{fullShare} Vv main_v3)) := by
  unfold Pipeline.arrBufs
  rw [show Finset.univ.image (Pipeline.arrRef spec2) = {main_v2, main_v3} from by decide,
    bigSep_insert (by decide), bigSep_singleton]
  rfl

/-- ENTRY: the core's unscoped buffers at `W3` are the third pass's arrays at its entry contents — the array z in two
    halves — and the unscoped rest. -/
theorem entry2 (c : Dev nD) :
    (StableHlo.held (c : Thread nD τ) (Pipeline.ucRefs τ sig) (W3 m ρ c) : sProp 𝕄)
      ⊢ iprop((pdats m ρ 2 c).arrays ((pdats m ρ 2 c).arrAt · 0)
          ∗ Pipeline.unscopedRest (Ix := Unit) (Name := ℕ) (U := UR sig nD τ) (Lvl := ℕ) spec2 c (V3 m ρ c)) := by
  have hsplit : (unscopedBufs c (V3 m ρ c) : sProp 𝕄) ⊢ iprop((pdats m ρ 2 c).arrays ((pdats m ρ 2 c).arrAt · 0)
      ∗ Pipeline.unscopedRest (Ix := Unit) (Name := ℕ) (U := UR sig nD τ) (Lvl := ℕ) spec2 c (V3 m ρ c)) := by
    rw [Pipeline.unscopedBufs_split₀ (Pipeline.pin (pcfgs (F := F)) adm) 2 winFacts₀2.arr_unscoped c (V3 m ρ c)]
    refine sep_mono ?_ .rfl
    rw [show (pdats m ρ 2 c) = dat2 (V3 m ρ) c from rfl, arrays2]
    refine (Entails.of_eq (arrBufs2 c (V3 m ρ c))).trans ?_
    iintro ⟨H2, H3⟩
    ihave H := (pointsTo_share (PosShare.mem_left_op_right fullShare)).1 $$ H2
    icases H with ⟨Hl, Hr⟩
    isplitl [Hl]; · iexact Hl
    isplitl [Hr]; · iexact Hr
    iexact H3
  rw [Pipeline.unscopedBufs_held] at hsplit
  exact hsplit

/-- EXIT: the halves of z joined, the output array at what the write-backs leave, the rest as entered: the core's
    unscoped buffers at `W4`. -/
theorem exit2 (c : Dev nD) :
    iprop((pdats m ρ 2 c).arrays ((pdats m ρ 2 c).arrAt · cfg2.N)
        ∗ Pipeline.unscopedRest (Ix := Unit) (Name := ℕ) (U := UR sig nD τ) (Lvl := ℕ) spec2 c (V3 m ρ c))
      ⊢ (StableHlo.held (c : Thread nD τ) (Pipeline.ucRefs τ sig) (W4 m ρ c) : sProp 𝕄) := by
  have hjoin : iprop((pdats m ρ 2 c).arrays ((pdats m ρ 2 c).arrAt · cfg2.N)
        ∗ Pipeline.unscopedRest (Ix := Unit) (Name := ℕ) (U := UR sig nD τ) (Lvl := ℕ) spec2 c (V3 m ρ c))
      ⊢ (unscopedBufs c (V4 m ρ c) : sProp 𝕄) := by
    rw [Pipeline.unscopedBufs_split₀ (Pipeline.pin (pcfgs (F := F)) adm) 2 winFacts₀2.arr_unscoped c (V4 m ρ c)]
    refine sep_mono ?_ (Entails.of_eq ?_)
    · rw [show (pdats m ρ 2 c) = dat2 (V3 m ρ) c from rfl, arrays2]
      refine BIBase.Entails.trans ?_ (Entails.of_eq (arrBufs2 c (V4 m ρ c)).symm)
      have h0 : (dat2 (V3 m ρ) c).arrAt 0 cfg2.N = V4 m ρ c main_v2 :=
        (((dat2 (V3 m ρ) c).arrAt_in 0 rfl _).trans (R2.A_eq2 (V3 m ρ) c 0)).trans (W4_of_ne m ρ c main_v2 (by decide)).symm
      have h1 : (dat2 (V3 m ρ) c).arrAt 1 cfg2.N = V4 m ρ c main_v2 :=
        (((dat2 (V3 m ρ) c).arrAt_in 1 rfl _).trans (R2.A_eq2 (V3 m ρ) c 1)).trans (W4_of_ne m ρ c main_v2 (by decide)).symm
      have h2 : (dat2 (V3 m ρ) c).arrAt 2 cfg2.N = V4 m ρ c main_v3 := (W4_out m ρ c).symm
      rw [h0, h1, h2]
      iintro ⟨Hl, Hr, H3⟩
      isplitl [Hl Hr]
      · iapply (pointsTo_share (PosShare.mem_left_op_right fullShare)).2
        isplitl [Hl] <;> iassumption
      iexact H3
    · unfold Pipeline.unscopedRest
      exact bigSep_congr fun b hb => by
        rw [show V4 m ρ c b = V3 m ρ c b from W4_of_ne m ρ c b fun e =>
          (Finset.mem_sdiff.mp hb).2 (e ▸ Finset.mem_image.mpr ⟨2, Finset.mem_univ _, rfl⟩)]
  rw [Pipeline.unscopedBufs_held] at hjoin
  exact hjoin

set_option backward.isDefEq.respectTransparency.types false in
/-- THE THIRD PASS: entered from `W3`, left at `W4`, which the launch reads at the end. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m ρ c); isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state has each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

/-- THE RESULT beside the frame: the result array ends at the third pass's output array after its write-backs. -/
theorem run_result : θ_run defs (onTc (τ := τ) (main (F := F))) ⟨m, fun _ => 0, ρ⟩ (fun r => ∀ c : Dev nD,
      r.2.mem ((c.tc : Thread nD τ).loc main_v3) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.KernelIdeal.Run

end
-- ==== Proof.Spec.lean ====
import proofs.«125266_g63213328662976_cont_sun_m_190_13_alg».proof.KernelIdeal
import Idealize.ShloMosaic.Lib.ValueIdx
import Idealize.ShloMosaic.PureOps.Ideal.Laws

/-!
# The result as a function of the six argument arrays

A variational graph auto-encoder's forward pass over `N = 10000` nodes, read on the extended reals
(every operation exact). Four whole-array functions, each given entry by entry:

* `T0 x w0`       — the feature product, `(x · W₀)[n, h] = ∑ f, x[n, f] · W₀[f, h]`;
* `C adj t0 wc`   — one graph convolution with a rectifier, then both heads at once:
                     `C[i, q] = ∑ h, max (∑ n, adj[i, n] · t0[n, h]) 0 · wc[h, q]`, where the 32 columns of `wc`
                     are the 16 columns of the mean head followed by the 16 of the log-deviation head;
* `Z adj c noise` — the second convolution and the reparametrisation: with `m = adj · c`,
                     `Z[i, j] = noise[i, j] · exp (m[i, 16 + j]) + m[i, j]`;
* `A z`           — the inner-product decoder, `A[i, n] = σ (∑ j, z[i, j] · z[n, j])`, `σ x = 1 / (1 + e⁻ˣ)`.

The result of the forward pass is `A (Z adj (C adj (T0 x w0) wc) noise)`.

Every index is built from coordinates of literal extent (`Fin 10000`, `Fin 32`, …), so that an entry of each
array at `ix2 a b` is its defining expression by `rfl`.
-/

noncomputable section

namespace Cert.Spec

open Idealize.ShloMosaic Idealize.ShloMosaic.ValueIdx Cert.KernelIdeal
open scoped BigOperators

/-- Row `r` of the `b`-th block of 400 consecutive rows, as a row of the whole array: `400 b + r`. -/
def blockRow (b : Fin 25) (r : Fin 400) : Fin 10000 := ⟨400 * b.val + r.val, by omega⟩

@[simp] theorem blockRow_val (b : Fin 25) (r : Fin 400) : (blockRow b r).val = 400 * b.val + r.val := rfl

/-- Column `16 + j` of a 32-column array: the second half, where the log-deviation head lives. -/
def hiCol (j : Fin 16) : Fin 32 := ⟨16 + j.val, by omega⟩
/-- Column `j` of a 32-column array, for `j < 16`: the first half, where the mean head lives. -/
def loCol (j : Fin 16) : Fin 32 := ⟨j.val, by omega⟩

@[simp] theorem hiCol_val (j : Fin 16) : (hiCol j).val = 16 + j.val := rfl
@[simp] theorem loCol_val (j : Fin 16) : (loCol j).val = j.val := rfl

/-- The feature product `x · W₀`. -/
def T0 (x : Vec Ideal S10000x128 .f32) (w0 : Vec Ideal S128x32 .f32) : Vec Ideal S10000x32 .f32 :=
  fun i => ∑ f : Fin 128, x (ix2 (i 0 : Fin 10000) f) * w0 (ix2 f (i 1 : Fin 32))

/-- A rectified graph convolution followed by the two heads side by side: `max (adj · t0) 0 · wc`. -/
def C (adj : Vec Ideal S10000x10000 .f32) (t0 : Vec Ideal S10000x32 .f32) (wc : Vec Ideal S32x32 .f32) :
    Vec Ideal S10000x32 .f32 :=
  fun i => ∑ h : Fin 32, max (∑ n : Fin 10000, adj (ix2 (i 0 : Fin 10000) n) * t0 (ix2 n h)) 0 * wc (ix2 h (i 1 : Fin 32))

/-- The second convolution `m = adj · c` and the sample `noise · exp (m[·, 16 + j]) + m[·, j]`. -/
def Z (adj : Vec Ideal S10000x10000 .f32) (c : Vec Ideal S10000x32 .f32) (noise : Vec Ideal S10000x16 .f32) :
    Vec Ideal S10000x16 .f32 :=
  fun i => noise (ix2 (i 0 : Fin 10000) (i 1 : Fin 16))
      * Ideal.exp (∑ n : Fin 10000, adj (ix2 (i 0 : Fin 10000) n) * c (ix2 n (hiCol (i 1))))
    + ∑ n : Fin 10000, adj (ix2 (i 0 : Fin 10000) n) * c (ix2 n (loCol (i 1)))

/-- The decoder: the logistic function of the Gram matrix of the rows of `z`. -/
def A (z : Vec Ideal S10000x16 .f32) : Vec Ideal S10000x10000 .f32 :=
  fun i => Ideal.logistic (∑ j : Fin 16, z (ix2 (i 0 : Fin 10000) j) * z (ix2 (i 1 : Fin 10000) j))

/-! Each array at an index given by its coordinates is its defining expression. -/

theorem T0_apply (x : Vec Ideal S10000x128 .f32) (w0 : Vec Ideal S128x32 .f32) (n : Fin 10000) (h : Fin 32) :
    T0 x w0 (ix2 n h) = ∑ f : Fin 128, x (ix2 n f) * w0 (ix2 f h) := rfl

theorem C_apply (adj : Vec Ideal S10000x10000 .f32) (t0 : Vec Ideal S10000x32 .f32) (wc : Vec Ideal S32x32 .f32)
    (i : Fin 10000) (q : Fin 32) :
    C adj t0 wc (ix2 i q) = ∑ h : Fin 32, max (∑ n : Fin 10000, adj (ix2 i n) * t0 (ix2 n h)) 0 * wc (ix2 h q) := rfl

theorem Z_apply (adj : Vec Ideal S10000x10000 .f32) (c : Vec Ideal S10000x32 .f32) (noise : Vec Ideal S10000x16 .f32)
    (i : Fin 10000) (j : Fin 16) :
    Z adj c noise (ix2 i j)
      = noise (ix2 i j) * Ideal.exp (∑ n : Fin 10000, adj (ix2 i n) * c (ix2 n (hiCol j)))
        + ∑ n : Fin 10000, adj (ix2 i n) * c (ix2 n (loCol j)) := rfl

theorem A_apply (z : Vec Ideal S10000x16 .f32) (i n : Fin 10000) :
    A z (ix2 i n) = Ideal.logistic (∑ j : Fin 16, z (ix2 i j) * z (ix2 n j)) := rfl

end Cert.Spec

end
-- ==== Proof.Contract.lean ====
import proofs.«125266_g63213328662976_cont_sun_m_190_13_alg».proof.Proof.Gen.KernelIdeal
import Idealize.ShloMosaic.Lib.ValueIdx
import Idealize.ShloMosaic.PureOps.Ideal.Laws

/-!
# The four matrix products of the forward pass, entry by entry

On the extended reals a product accumulated into a zero matrix is the plain contraction: its entry `(r, c)` is
`∑ k, lhs[r, k] · rhs[k, c]` — or `∑ k, lhs[r, k] · rhs[c, k]` for the decoder's product, which contracts the
second axis of both operands (a product with a transpose). One statement per shape of product, over coordinates of
literal extent.
-/

noncomputable section

namespace Cert.Contract

open Idealize.ShloMosaic Idealize.ShloMosaic.ValueIdx Cert.KernelIdeal
open scoped BigOperators

/-! ### `x · W₀`: 10000×128 by 128×32 -/

theorem mm_feat_lhs0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl
theorem mm_feat_lhs1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem mm_feat_rhs0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem mm_feat_rhs1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

/-- Entry `(r, c)` of the product into a zero accumulator: the sum over the contracted coordinate `k`. -/
theorem mm_feat (lhs : FVec Ideal S10000x128 .f32) (rhs : FVec Ideal S128x32 .f32) (r : Fin 10000) (c : Fin 32) :
    matmul (F := Ideal) dot_S10000x128_S128x32_S10000x32_1_0_0_1_n_n none lhs rhs (constant S10000x32 .f32 0x00000000#32) (ix2 r c)
      = ∑ k : Fin 128, lhs (ix2 r k) * rhs (ix2 k c) := by
  simp only [matmul]
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 r c) ((contrEquiv1 dot_S10000x128_S128x32_S10000x32_1_0_0_1_n_n 128 rfl rfl).symm k) = ix2 r k :=
    funext fun a => Fin.ext (by
      match a with
      | ⟨0, _⟩ => exact mm_feat_lhs0 _ _
      | ⟨1, _⟩ => exact (mm_feat_lhs1 _ _).trans hk)
  have er : dot_S10000x128_S128x32_S10000x32_1_0_0_1_n_n.rhsIdx (ix2 r c) ((contrEquiv1 dot_S10000x128_S128x32_S10000x32_1_0_0_1_n_n 128 rfl rfl).symm k) = ix2 k c :=
    funext fun a => Fin.ext (by
      match a with
      | ⟨0, _⟩ => exact (mm_feat_rhs0 _ _).trans hk
      | ⟨1, _⟩ => exact mm_feat_rhs1 _ _)
  rw [el, er]

/-! ### a block of 400 rows of the adjacency by a 10000×32 matrix -/

theorem mm_adj_lhs0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide),
    dif_pos (show (0 : Fin S400x10000.rank) ∈ dot_S400x10000_S10000x32_S400x32_1_0_0_1_n_n.lhsNonContracting by decide)]
  rfl
theorem mm_adj_lhs1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem mm_adj_rhs0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem mm_adj_rhs1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide),
    dif_pos (show (1 : Fin S10000x32.rank) ∈ dot_S400x10000_S10000x32_S400x32_1_0_0_1_n_n.rhsNonContracting by decide)]
  rfl

/-- Entry `(r, c)` of the product into a zero accumulator: the sum over the contracted coordinate `k`. -/
theorem mm_adj (lhs : FVec Ideal S400x10000 .f32) (rhs : FVec Ideal S10000x32 .f32) (r : Fin 400) (c : Fin 32) :
    matmul (F := Ideal) dot_S400x10000_S10000x32_S400x32_1_0_0_1_n_n none lhs rhs (constant S400x32 .f32 0x00000000#32) (ix2 r c)
      = ∑ k : Fin 10000, lhs (ix2 r k) * rhs (ix2 k c) := by
  simp only [matmul]
  rw [Ideal.matmul_constant_zero_apply, ← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 r c) ((contrEquiv1 dot_S400x10000_S10000x32_S400x32_1_0_0_1_n_n 10000 rfl rfl).symm k) = ix2 r k :=
    funext fun a => Fin.ext (by
      match a with
      | ⟨0, _⟩ => exact mm_adj_lhs0 _ _
      | ⟨1, _⟩ => exact (mm_adj_lhs1 _ _).trans hk)
  have er : dot_S400x10000_S10000x32_S400x32_1_0_0_1_n_n.rhsIdx (ix2 r c) ((contrEquiv1 dot_S400x10000_S10000x32_S400x32_1_0_0_1_n_n 10000 rfl rfl).symm k) = ix2 k c :=
    funext fun a => Fin.ext (by
      match a with
      | ⟨0, _⟩ => exact (mm_adj_rhs0 _ _).trans hk
      | ⟨1, _⟩ => exact mm_adj_rhs1 _ _)
  rw [el, er]

/-! ### 400×32 by the 32×32 matrix of both heads -/

theorem mm_heads_lhs0 (i : S400x32.Idx) (q : dot_S400x32_S32x32_S400x32_1_0_0_1_n_n.contr.Idx) :
    (dot_S400x32_S32x32_S400x32_1_0_0_1_n_n.lhsIdx i q 0).val = (i 0).val := by
  unfold DotDims.lhsIdx
  rw [dif_neg (show ¬(0 : Fin S400x32.rank) ∈ dot_S400x32_S32x32_S400x32_1_0_0_1_n_n.lhsBatch by decide),
    dif_pos (show (0 : Fin S400x32.rank) ∈ dot_S400x32_S32x32_S400x32_1_0_0_1_n_n.lhsNonContracting by decide)]
  rfl
theorem mm_heads_lhs1 (i : S400x32.Idx) (q : dot_S400x32_S32x32_S400x32_1_0_0_1_n_n.contr.Idx) :
    (dot_S400x32_S32x32_S400x32_1_0_0_1_n_n.lhsIdx i q 1).val = (q ⟨0, by decide⟩).val :=
  dot_S400x32_S32x32_S400x32_1_0_0_1_n_n.lhsIdx_val_of_single rfl i q
theorem mm_heads_rhs0 (i : S400x32.Idx) (q : dot_S400x32_S32x32_S400x32_1_0_0_1_n_n.contr.Idx) :
    (dot_S400x32_S32x32_S400x32_1_0_0_1_n_n.rhsIdx i q 0).val = (q ⟨0, by decide⟩).val :=
  dot_S400x32_S32x32_S400x32_1_0_0_1_n_n.rhsIdx_val_of_single rfl i q
theorem mm_heads_rhs1 (i : S400x32.Idx) (q : dot_S400x32_S32x32_S400x32_1_0_0_1_n_n.contr.Idx) :
    (dot_S400x32_S32x32_S400x32_1_0_0_1_n_n.rhsIdx i q 1).val = (i 1).val := by
  unfold DotDims.rhsIdx
  rw [dif_neg (show ¬(1 : Fin S32x32.rank) ∈ dot_S400x32_S32x32_S400x32_1_0_0_1_n_n.rhsBatch by decide),
    dif_pos (show (1 : Fin S32x32.rank) ∈ dot_S400x32_S32x32_S400x32_1_0_0_1_n_n.rhsNonContracting by decide)]
  rfl

/-- Entry `(r, c)` of the product into a zero accumulator: the sum over the contracted coordinate `k`. -/
theorem mm_heads (lhs : FVec Ideal S400x32 .f32) (rhs : FVec Ideal S32x32 .f32) (r : Fin 400) (c : Fin 32) :
    matmul (F := Ideal) dot_S400x32_S32x32_S400x32_1_0_0_1_n_n none lhs rhs (constant S400x32 .f32 0x00000000#32) (ix2 r c)
      = ∑ k : Fin 32, lhs (ix2 r k) * rhs (ix2 k c) := by
  simp only [matmul]
  rw [Ideal.matmul_constant_zero_apply, ← Equiv.sum_comp (contrEquiv1 dot_S400x32_S32x32_S400x32_1_0_0_1_n_n 32 rfl rfl).symm]
  refine Finset.sum_congr rfl fun k _ => ?_
  have hk := contrEquiv1_symm_val dot_S400x32_S32x32_S400x32_1_0_0_1_n_n 32 rfl rfl k
  have el : dot_S400x32_S32x32_S400x32_1_0_0_1_n_n.lhsIdx (ix2 r c) ((contrEquiv1 dot_S400x32_S32x32_S400x32_1_0_0_1_n_n 32 rfl rfl).symm k) = ix2 r k :=
    funext fun a => Fin.ext (by
      match a with
      | ⟨0, _⟩ => exact mm_heads_lhs0 _ _
      | ⟨1, _⟩ => exact (mm_heads_lhs1 _ _).trans hk)
  have er : dot_S400x32_S32x32_S400x32_1_0_0_1_n_n.rhsIdx (ix2 r c) ((contrEquiv1 dot_S400x32_S32x32_S400x32_1_0_0_1_n_n 32 rfl rfl).symm k) = ix2 k c :=
    funext fun a => Fin.ext (by
      match a with
      | ⟨0, _⟩ => exact (mm_heads_rhs0 _ _).trans hk
      | ⟨1, _⟩ => exact mm_heads_rhs1 _ _)
  rw [el, er]

/-! ### a block of 400 rows of `z` against all rows of `z`: the contraction runs over the second axis of both -/

theorem mm_gram_lhs0 (i : S400x10000.Idx) (q : dot_S400x16_S10000x16_S400x10000_1_1_0_0_n_n.contr.Idx) :
    (dot_S400x16_S10000x16_S400x10000_1_1_0_0_n_n.lhsIdx i q 0).val = (i 0).val := by
  unfold DotDims.lhsIdx
  rw [dif_neg (show ¬(0 : Fin S400x16.rank) ∈ dot_S400x16_S10000x16_S400x10000_1_1_0_0_n_n.lhsBatch by decide),
    dif_pos (show (0 : Fin S400x16.rank) ∈ dot_S400x16_S10000x16_S400x10000_1_1_0_0_n_n.lhsNonContracting by decide)]
  rfl
theorem mm_gram_lhs1 (i : S400x10000.Idx) (q : dot_S400x16_S10000x16_S400x10000_1_1_0_0_n_n.contr.Idx) :
    (dot_S400x16_S10000x16_S400x10000_1_1_0_0_n_n.lhsIdx i q 1).val = (q ⟨0, by decide⟩).val :=
  dot_S400x16_S10000x16_S400x10000_1_1_0_0_n_n.lhsIdx_val_of_single rfl i q
theorem mm_gram_rhs1 (i : S400x10000.Idx) (q : dot_S400x16_S10000x16_S400x10000_1_1_0_0_n_n.contr.Idx) :
    (dot_S400x16_S10000x16_S400x10000_1_1_0_0_n_n.rhsIdx i q 1).val = (q ⟨0, by decide⟩).val :=
  dot_S400x16_S10000x16_S400x10000_1_1_0_0_n_n.rhsIdx_val_of_single rfl i q
theorem mm_gram_rhs0 (i : S400x10000.Idx) (q : dot_S400x16_S10000x16_S400x10000_1_1_0_0_n_n.contr.Idx) :
    (dot_S400x16_S10000x16_S400x10000_1_1_0_0_n_n.rhsIdx i q 0).val = (i 1).val := by
  unfold DotDims.rhsIdx
  rw [dif_neg (show ¬(0 : Fin S10000x16.rank) ∈ dot_S400x16_S10000x16_S400x10000_1_1_0_0_n_n.rhsBatch by decide),
    dif_pos (show (0 : Fin S10000x16.rank) ∈ dot_S400x16_S10000x16_S400x10000_1_1_0_0_n_n.rhsNonContracting by decide)]
  rfl

/-- Entry `(r, c)` of the product into a zero accumulator: the sum over the contracted coordinate `k`. -/
theorem mm_gram (lhs : FVec Ideal S400x16 .f32) (rhs : FVec Ideal S10000x16 .f32) (r : Fin 400) (c : Fin 10000) :
    matmul (F := Ideal) dot_S400x16_S10000x16_S400x10000_1_1_0_0_n_n none lhs rhs (constant S400x10000 .f32 0x00000000#32) (ix2 r c)
      = ∑ k : Fin 16, lhs (ix2 r k) * rhs (ix2 c k) := by
  simp only [matmul]
  rw [Ideal.matmul_constant_zero_apply, ← Equiv.sum_comp (contrEquiv1 dot_S400x16_S10000x16_S400x10000_1_1_0_0_n_n 16 rfl rfl).symm]
  refine Finset.sum_congr rfl fun k _ => ?_
  have hk := contrEquiv1_symm_val dot_S400x16_S10000x16_S400x10000_1_1_0_0_n_n 16 rfl rfl k
  have el : dot_S400x16_S10000x16_S400x10000_1_1_0_0_n_n.lhsIdx (ix2 r c) ((contrEquiv1 dot_S400x16_S10000x16_S400x10000_1_1_0_0_n_n 16 rfl rfl).symm k) = ix2 r k :=
    funext fun a => Fin.ext (by
      match a with
      | ⟨0, _⟩ => exact mm_gram_lhs0 _ _
      | ⟨1, _⟩ => exact (mm_gram_lhs1 _ _).trans hk)
  have er : dot_S400x16_S10000x16_S400x10000_1_1_0_0_n_n.rhsIdx (ix2 r c) ((contrEquiv1 dot_S400x16_S10000x16_S400x10000_1_1_0_0_n_n 16 rfl rfl).symm k) = ix2 c k :=
    funext fun a => Fin.ext (by
      match a with
      | ⟨1, _⟩ => exact (mm_gram_rhs1 _ _).trans hk
      | ⟨0, _⟩ => exact mm_gram_rhs0 _ _)
  rw [el, er]

end Cert.Contract

end
-- ==== Proof.Payload.lean ====
import proofs.«125266_g63213328662976_cont_sun_m_190_13_alg».proof.Proof.Gen.KernelIdeal.Skeleton
import proofs.«125266_g63213328662976_cont_sun_m_190_13_alg».proof.Proof.Spec
import proofs.«125266_g63213328662976_cont_sun_m_190_13_alg».proof.Proof.Contract
import Idealize.ShloMosaic.Lib.Pipeline.Value

/-!
# What each store of the three kernels writes, entry by entry

Each kernel body computes, from the blocks it loads, the value it stores. Read on the extended reals:

* the first body's one-off store (made at the first grid point only) is the whole feature product `T0 x w0`;
* its per-point store, given 400 consecutive rows of the adjacency, is the same 400 rows of `C adj t0 wc`;
* the second body's store, given 400 rows of the adjacency and of the noise, is those rows of `Z adj c noise`;
* the third body's store, given 400 rows of `z` and the whole of `z`, is those rows of `A z`.

"Row `r` of the block is row `400 b + r` of the array" is a hypothesis on the block, entry by entry; nothing here
mentions memory. The reshapes in the bodies are to the same shape, hence the identity; the two column slices of the
second body read columns `16 + j` and `j` of the 32-column product.
-/

noncomputable section

namespace Cert.Payload

open Idealize.ShloMosaic Idealize.ShloMosaic.ValueIdx Cert.KernelIdeal Cert.KernelIdeal.Gen
open scoped BigOperators

/-- The one-off store of the first body is the feature product. -/
theorem pay1_eq (x : Vec Ideal S10000x128 .f32) (w0 : Vec Ideal S128x32 .f32) :
    k0_pay1 (F := Ideal) x w0 = Spec.T0 x w0 := by
  funext i
  obtain ⟨n, h, rfl⟩ : ∃ (n : Fin 10000) (h : Fin 32), i = ix2 n h := ⟨i 0, i 1, eq_ix2 i⟩
  unfold k0_pay1
  rw [shapeCast_self]
  exact Contract.mm_feat x w0 n h

/-- The per-point store of the first body: rows `400 b + r` of `C adj t0 wc`. -/
theorem pay2_apply (adj : Vec Ideal S10000x10000 .f32) (adjblk : Vec Ideal S400x10000 .f32)
    (t0 : Vec Ideal S10000x32 .f32) (wc : Vec Ideal S32x32 .f32) (b : Fin 25)
    (hadj : ∀ (r : Fin 400) (n : Fin 10000), adjblk (ix2 r n) = adj (ix2 (Spec.blockRow b r) n))
    (r : Fin 400) (q : Fin 32) :
    k0_pay2 (F := Ideal) adjblk t0 wc (ix2 r q) = Spec.C adj t0 wc (ix2 (Spec.blockRow b r) q) := by
  unfold k0_pay2
  rw [shapeCast_self, Contract.mm_heads, Spec.C_apply]
  refine Finset.sum_congr rfl fun h _ => ?_
  rw [maximumf_apply, broadcast_apply, Contract.mm_adj]
  simp only [hadj]
  show max _ (Ideal.ofBits .f32 0x00000000#32) * _ = _
  rw [Ideal.ofBits_zero_f32]

/-- The exponential of a vector at an index is the exponential of the entry. -/
theorem exp_apply {s : Shape} (v : FVec Ideal s .f32) (i : s.Idx) : exp v i = Ideal.exp (v i) := rfl

/-- The slice of 16 columns from column 16 on reads column `16 + j`. -/
theorem slice_hi (v : FVec Ideal S400x32 .f32) (r : Fin 400) (j : Fin 16) :
    extractStridedSlice S400x16 ![0, 16] v slices_S400x32_o0_16_S400x16 (ix2 r j) = v (ix2 r (Spec.hiCol j)) :=
  extractStridedSlice_apply _ v _ (ix2 r j) (ix2 r (Spec.hiCol j))
    (fun a => match a with | ⟨0, _⟩ => (Nat.zero_add _).symm | ⟨1, _⟩ => rfl)

/-- The slice of the first 16 columns reads column `j`. -/
theorem slice_lo (v : FVec Ideal S400x32 .f32) (r : Fin 400) (j : Fin 16) :
    extractStridedSlice S400x16 ![0, 0] v slices_S400x32_o0_0_S400x16 (ix2 r j) = v (ix2 r (Spec.loCol j)) :=
  extractStridedSlice_apply _ v _ (ix2 r j) (ix2 r (Spec.loCol j))
    (fun a => match a with | ⟨0, _⟩ => (Nat.zero_add _).symm | ⟨1, _⟩ => (Nat.zero_add _).symm)

/-- The store of the second body: rows `400 b + r` of `Z adj c noise`. -/
theorem pay3_apply (adj : Vec Ideal S10000x10000 .f32) (adjblk : Vec Ideal S400x10000 .f32)
    (c : Vec Ideal S10000x32 .f32) (noise : Vec Ideal S10000x16 .f32) (noiseblk : Vec Ideal S400x16 .f32) (b : Fin 25)
    (hadj : ∀ (r : Fin 400) (n : Fin 10000), adjblk (ix2 r n) = adj (ix2 (Spec.blockRow b r) n))
    (hnoise : ∀ (r : Fin 400) (j : Fin 16), noiseblk (ix2 r j) = noise (ix2 (Spec.blockRow b r) j))
    (r : Fin 400) (j : Fin 16) :
    k1_pay1 (F := Ideal) adjblk c noiseblk (ix2 r j) = Spec.Z adj c noise (ix2 (Spec.blockRow b r) j) := by
  unfold k1_pay1
  rw [shapeCast_self, addf_apply, mulf_apply, exp_apply, slice_hi, slice_lo, Contract.mm_adj, Contract.mm_adj,
    Spec.Z_apply, hnoise]
  simp only [hadj]

/-- The store of the third body: rows `400 b + r` of `A z`. -/
theorem pay4_apply (z : Vec Ideal S10000x16 .f32) (zblk : Vec Ideal S400x16 .f32) (b : Fin 25)
    (hz : ∀ (r : Fin 400) (j : Fin 16), zblk (ix2 r j) = z (ix2 (Spec.blockRow b r) j))
    (r : Fin 400) (n : Fin 10000) :
    k2_pay1 (F := Ideal) zblk z (ix2 r n) = Spec.A z (ix2 (Spec.blockRow b r) n) := by
  unfold k2_pay1
  rw [shapeCast_self, shapeCast_self, Spec.A_apply]
  show Ideal.logistic (matmul (F := Ideal) dot_S400x16_S10000x16_S400x10000_1_1_0_0_n_n none zblk z
    (constant S400x10000 .f32 0x00000000#32) (ix2 r n)) = _
  rw [Contract.mm_gram]
  simp only [hz]

end Cert.Payload

end
-- ==== Proof.Value0.lean ====
import proofs.«125266_g63213328662976_cont_sun_m_190_13_alg».proof.Proof.Region0
import proofs.«125266_g63213328662976_cont_sun_m_190_13_alg».proof.Proof.Spec
import proofs.«125266_g63213328662976_cont_sun_m_190_13_alg».proof.Proof.Payload
import Idealize.ShloMosaic.Lib.Pipeline.Value
import Idealize.ShloMosaic.Lib.ValueIdx
import Idealize.ShloMosaic.Lib.Tactic

noncomputable section

namespace Cert.KernelIdeal.Val0

open Cert.KernelIdeal Cert.KernelIdeal.Gen Cert.KernelIdeal.R0
open Idealize.ShloMosaic Idealize.ShloMosaic.TcCoe Idealize.ShloMosaic.ValueIdx Idealize.SL.Sem
open Idealize.ShloMosaic.Pipeline (Dat)

/-! # The first region's result array, as one function of the arrays it is entered with

The first grid point computes the feature product `x · W₀` of the two whole arrays into a buffer every later point
reads; so at every point that buffer holds `Spec.T0 x w0`. Each grid point `t` then writes rows `400 t … 400 t + 399`
of the result; those rows are the same rows of `Spec.C adj (Spec.T0 x w0) wc`, because the point's adjacency input is
the same rows of `adj` and the weights are whole. The 25 row blocks cover the array. -/

variable (V : (c : Dev nD) → (b : Ref sig .tc) → Buf (Elt Ideal) ((c : Thread nD τ).loc b))

theorem zeros : (![0, 0] : Fin 2 → Nat) = fun _ => 0 := funext fun a => by fin_cases a <;> rfl

/-- A grid point as a block number. -/
def blk (t : Fin cfg0.N) : Fin 25 := ⟨t.val, Nat.lt_of_lt_of_eq t.isLt N_0⟩

/-- The windows' block indices at each grid point: the row-block windows are at block `t` on the rows and `0` on the
    columns; the whole-array windows never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry written at a point: with the adjacency input the `b`-th row block of `adj`, the body's value at `y` is
    `Spec.C adj t0 wc` at row `400 b + y₀`, column `y₁`. -/
theorem point (adj : Vec Ideal S10000x10000 .f32) (t0 : Vec Ideal S10000x32 .f32) (wc : Vec Ideal S32x32 .f32)
    (adjblk : Vec Ideal S400x10000 .f32) (wcw : Vec Ideal S32x32 .f32) (b : Fin 25)
    (hadj : ∀ (r : Fin 400) (n : Fin 10000), adjblk (ix2 r n) = adj (ix2 (Spec.blockRow b r) n)) (hwc : wcw = wc)
    (y : S400x32.Idx) (i : S10000x32.Idx) (hi0 : (i 0).val = 400 * b.val + (y 0).val) (hi1 : (i 1).val = (y 1).val) :
    k0_pay2 (F := Ideal) adjblk t0 wcw y = Spec.C adj t0 wc i := by
  subst hwc
  have hy : y = ix2 (y 0) (y 1) := eq_ix2 y
  have hi : i = ix2 (Spec.blockRow b (y 0)) (y 1) := by
    rw [eq_ix2 i]
    refine congrArg₂ ix2 (Fin.ext ?_) (Fin.ext ?_)
    · rw [hi0]; rfl
    · rw [hi1]
  rw [hy, hi]
  exact Cert.Payload.pay2_apply adj adjblk t0 wcw b hadj (y 0) (y 1)

/-- The adjacency input's block at point `t` is rows `400 t …` of `adj`. -/
theorem adjblock_apply (c : Dev nD) (t : Fin cfg0.N) (r : Fin 400) (n : Fin 10000) :
    (iblk0 V c 0 t : Vec Ideal S400x10000 .f32) (ix2 r n) = (V c main_arg1 : Vec Ideal S10000x10000 .f32) (ix2 (Spec.blockRow (blk t) r) n) := by
  obtain ⟨e0, e1, -, -, -, -, -, -, -, -⟩ := idx_facts t
  show (V c main_arg1 : Vec Ideal S10000x10000 .f32) (((cfg0.win 0).blk t).view.emb (ix2 r n)) = _
  refine congrArg _ ?_
  funext a; apply Fin.ext
  match a with
  | ⟨0, _⟩ => show win0_0.index t (0 : Fin 2) * 400 + 1 * r.val = 400 * t.val + r.val; omega
  | ⟨1, _⟩ => show win0_0.index t (1 : Fin 2) * 10000 + 1 * n.val = n.val; omega

/-- The features input's block at every point is all of `x`. -/
theorem xwhole_eq (c : Dev nD) (t : Fin cfg0.N) :
    (iblk0 V c 1 t : Vec Ideal S10000x128 .f32) = (V c main_arg0 : Vec Ideal S10000x128 .f32) := by
  obtain ⟨-, -, e2, e3, -, -, -, -, -, -⟩ := idx_facts t
  funext y
  show (V c main_arg0 : Vec Ideal S10000x128 .f32) (((cfg0.win 1).blk t).view.emb y) = _
  refine congrArg _ ?_
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The first weights input's block at every point is all of `W₀`. -/
theorem w0whole_eq (c : Dev nD) (t : Fin cfg0.N) :
    (iblk0 V c 2 t : Vec Ideal S128x32 .f32) = (V c main_arg3 : Vec Ideal S128x32 .f32) := by
  obtain ⟨-, -, -, -, e4, e5, -, -, -, -⟩ := idx_facts t
  funext y
  show (V c main_arg3 : Vec Ideal S128x32 .f32) (((cfg0.win 2).blk t).view.emb y) = _
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega

/-- The second weights input's block at every point is all of the concatenated head weights. -/
theorem wcwhole_eq (c : Dev nD) (t : Fin cfg0.N) :
    (iblk0 V c 3 t : Vec Ideal S32x32 .f32) = (V c main_v0 : Vec Ideal S32x32 .f32) := by
  obtain ⟨-, -, -, -, -, -, e6, e7, -, -⟩ := idx_facts t
  funext y
  show (V c main_v0 : Vec Ideal S32x32 .f32) (((cfg0.win 3).blk t).view.emb y) = _
  refine congrArg _ ?_
  funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- The buffer carried from the first point on holds the feature product of the two whole arrays. -/
theorem carried_eq (c : Dev nD) : S0 V c = Spec.T0 (V c main_arg0) (V c main_arg3) := by
  unfold S0 scr
  rw [View.canon_unit_zero zeros]
  simp only [View.ld_unit_zero (S := S10000x128) zeros, View.ld_unit_zero (S := S128x32) zeros]
  rw [xwhole_eq V c t00, w0whole_eq V c t00]
  exact Cert.Payload.pay1_eq _ _

/-- What point `t` writes back is block `t` of `Spec.C adj (Spec.T0 x w0) wc`. -/
theorem flushed_eq (c : Dev nD) (t : Fin cfg0.N) :
    (dat0 V c).flushed 4 t
      = ((cfg0.win 4).blk t).view.read (Elt Ideal)
          (Spec.C (V c main_arg1) (Spec.T0 (V c main_arg0) (V c main_arg3)) (V c main_v0)) := by
  obtain ⟨-, -, -, -, -, -, -, -, e8, e9⟩ := idx_facts t
  show (cfg0.win 4).cut (grid0.coords t) ((dat0 V c).after 4 t) = _
  rw [after0_4]
  unfold outC
  rw [View.canon_unit_zero zeros]
  simp only [View.ld_unit_zero (S := S400x10000) zeros, View.ld_unit_zero (S := S10000x32) zeros,
    View.ld_unit_zero (S := S32x32) zeros]
  rw [carried_eq V c]
  funext y
  refine point (V c main_arg1) (Spec.T0 (V c main_arg0) (V c main_arg3)) (V c main_v0) (iblk0 V c 0 t) (iblk0 V c 3 t) (blk t)
    (adjblock_apply V c t) (wcwhole_eq V c t) y (((cfg0.win 4).blk t).view.emb y) ?_ ?_
  · show win0_4.index t (0 : Fin 2) * 400 + 1 * (y 0).val = 400 * t.val + (y 0).val; omega
  · show win0_4.index t (1 : Fin 2) * 32 + 1 * (y 1).val = (y 1).val; omega

/-- An index of the result array is in point `t`'s block iff each coordinate is in the block's range on its axis. -/
theorem mem_blk (t : Fin cfg0.N) (i : S10000x32.Idx) :
    i ∈ ((cfg0.win 4).blk t).view.set ↔ ∀ a : Fin 2, win0_4.index t a * S400x32.size a ≤ (i a).val ∧ (i a).val < win0_4.index t a * S400x32.size a + S400x32.size a := by
  show i ∈ ((View.whole main_v1).slice (win0_4.rect t)).set ↔ _
  rw [View.set_slice_whole, Rect.mem_set_unit]
  exact Iff.rfl

/-- Row `i₀` is written by point `i₀ / 400`: the 25 row blocks cover the array. -/
theorem cover (i : S10000x32.Idx) :
    ∃ t : Fin cfg0.N, (cfg0.win 4).flush t = true ∧ i ∈ ((cfg0.win 4).blk t).view.set := by
  have hi0 : (i 0).val < 10000 := (i 0).isLt
  have hi1 : (i 1).val < 32 := (i 1).isLt
  have hN : cfg0.N = 25 := N_0
  let t : Fin cfg0.N := ⟨(i 0).val / 400, by rw [hN]; omega⟩
  obtain ⟨-, -, -, -, -, -, -, -, e8, e9⟩ := idx_facts t
  have ht : t.val = (i 0).val / 400 := rfl
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 32 ≤ (i 1).val ∧ (i 1).val < win0_4.index t (1 : Fin 2) * 32 + 32; omega

/-- The result array after the region is `Spec.C` of the arrays the region is entered with. -/
theorem final (c : Dev nD) :
    (dat0 (F := Ideal) V c).arrAt 4 cfg0.N
      = Spec.C (V c main_arg1) (Spec.T0 (V c main_arg0) (V c main_arg3)) (V c main_v0) :=
  (dat0 V c).arrAt_eq_of_cover 4 (Spec.C (V c main_arg1) (Spec.T0 (V c main_arg0) (V c main_arg3)) (V c main_v0))
    (fun t _ => flushed_eq V c t) cover

end Cert.KernelIdeal.Val0

end
-- ==== Proof.Value1.lean ====
import proofs.«125266_g63213328662976_cont_sun_m_190_13_alg».proof.Proof.Region1
import proofs.«125266_g63213328662976_cont_sun_m_190_13_alg».proof.Proof.Spec
import proofs.«125266_g63213328662976_cont_sun_m_190_13_alg».proof.Proof.Payload
import Idealize.ShloMosaic.Lib.Pipeline.Value
import Idealize.ShloMosaic.Lib.ValueIdx
import Idealize.ShloMosaic.Lib.Tactic

noncomputable section

namespace Cert.KernelIdeal.Val1

open Cert.KernelIdeal Cert.KernelIdeal.Gen Cert.KernelIdeal.R1
open Idealize.ShloMosaic Idealize.ShloMosaic.TcCoe Idealize.ShloMosaic.ValueIdx Idealize.SL.Sem
open Idealize.ShloMosaic.Pipeline (Dat)

/-! # The second region's result array, as one function of the arrays it is entered with

Each grid point `t` writes rows `400 t … 400 t + 399` of `z`; those rows are the same rows of
`Spec.Z adj c noise`, because the point's adjacency and noise inputs are the same rows of `adj` and `noise` and its
middle input is all of `c`. The 25 row blocks cover the array. -/

variable (V : (c : Dev nD) → (b : Ref sig .tc) → Buf (Elt Ideal) ((c : Thread nD τ).loc b))

theorem zeros : (![0, 0] : Fin 2 → Nat) = fun _ => 0 := funext fun a => by fin_cases a <;> rfl

/-- A grid point as a block number. -/
def blk (t : Fin cfg1.N) : Fin 25 := ⟨t.val, Nat.lt_of_lt_of_eq t.isLt N_1⟩

/-- The windows' block indices at each grid point: the row-block windows are at block `t` on the rows and `0` on the
    columns; the whole-array window never moves. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- One entry written at a point: with the adjacency and noise inputs the `b`-th row blocks of `adj` and `noise` and the
    middle input all of `c`, the body's value at `y` is `Spec.Z adj c noise` at row `400 b + y₀`, column `y₁`. -/
theorem point (adj : Vec Ideal S10000x10000 .f32) (cc : Vec Ideal S10000x32 .f32) (noise : Vec Ideal S10000x16 .f32)
    (adjblk : Vec Ideal S400x10000 .f32) (cw : Vec Ideal S10000x32 .f32) (noiseblk : Vec Ideal S400x16 .f32) (b : Fin 25)
    (hadj : ∀ (r : Fin 400) (n : Fin 10000), adjblk (ix2 r n) = adj (ix2 (Spec.blockRow b r) n)) (hc : cw = cc)
    (hnoise : ∀ (r : Fin 400) (j : Fin 16), noiseblk (ix2 r j) = noise (ix2 (Spec.blockRow b r) j))
    (y : S400x16.Idx) (i : S10000x16.Idx) (hi0 : (i 0).val = 400 * b.val + (y 0).val) (hi1 : (i 1).val = (y 1).val) :
    k1_pay1 (F := Ideal) adjblk cw noiseblk y = Spec.Z adj cc noise i := by
  subst hc
  have hy : y = ix2 (y 0) (y 1) := eq_ix2 y
  have hi : i = ix2 (Spec.blockRow b (y 0)) (y 1) := by
    rw [eq_ix2 i]
    refine congrArg₂ ix2 (Fin.ext ?_) (Fin.ext ?_)
    · rw [hi0]; rfl
    · rw [hi1]
  rw [hy, hi]
  exact Cert.Payload.pay3_apply adj adjblk cw noise noiseblk b hadj hnoise (y 0) (y 1)

/-- The adjacency input's block at point `t` is rows `400 t …` of `adj`. -/
theorem adjblock_apply (c : Dev nD) (t : Fin cfg1.N) (r : Fin 400) (n : Fin 10000) :
    (iblk1 V c 0 t : Vec Ideal S400x10000 .f32) (ix2 r n) = (V c main_arg1 : Vec Ideal S10000x10000 .f32) (ix2 (Spec.blockRow (blk t) r) n) := by
  obtain ⟨e0, e1, -, -, -, -, -, -⟩ := idx_facts t
  show (V c main_arg1 : Vec Ideal S10000x10000 .f32) (((cfg1.win 0).blk t).view.emb (ix2 r n)) = _
  refine congrArg _ ?_
  funext a; apply Fin.ext
  match a with
  | ⟨0, _⟩ => show win1_0.index t (0 : Fin 2) * 400 + 1 * r.val = 400 * t.val + r.val; omega
  | ⟨1, _⟩ => show win1_0.index t (1 : Fin 2) * 10000 + 1 * n.val = n.val; omega

/-- The middle input's block at every point is all of `c`. -/
theorem cwhole_eq (c : Dev nD) (t : Fin cfg1.N) :
    (iblk1 V c 1 t : Vec Ideal S10000x32 .f32) = (V c main_v1 : Vec Ideal S10000x32 .f32) := by
  obtain ⟨-, -, e2, e3, -, -, -, -⟩ := idx_facts t
  funext y
  show (V c main_v1 : Vec Ideal S10000x32 .f32) (((cfg1.win 1).blk t).view.emb y) = _
  refine congrArg _ ?_
  funext a; apply Fin.ext
  match a with
  | ⟨0, _⟩ => show win1_1.index t (0 : Fin 2) * 10000 + 1 * (y 0).val = (y 0).val; omega
  | ⟨1, _⟩ => show win1_1.index t (1 : Fin 2) * 32 + 1 * (y 1).val = (y 1).val; omega

/-- The noise input's block at point `t` is rows `400 t …` of `noise`. -/
theorem noiseblock_apply (c : Dev nD) (t : Fin cfg1.N) (r : Fin 400) (j : Fin 16) :
    (iblk1 V c 2 t : Vec Ideal S400x16 .f32) (ix2 r j) = (V c main_arg2 : Vec Ideal S10000x16 .f32) (ix2 (Spec.blockRow (blk t) r) j) := by
  obtain ⟨-, -, -, -, e4, e5, -, -⟩ := idx_facts t
  show (V c main_arg2 : Vec Ideal S10000x16 .f32) (((cfg1.win 2).blk t).view.emb (ix2 r j)) = _
  refine congrArg _ ?_
  funext a; apply Fin.ext
  match a with
  | ⟨0, _⟩ => show win1_2.index t (0 : Fin 2) * 400 + 1 * r.val = 400 * t.val + r.val; omega
  | ⟨1, _⟩ => show win1_2.index t (1 : Fin 2) * 16 + 1 * j.val = j.val; omega

/-- What point `t` writes back is block `t` of `Spec.Z adj c noise`. -/
theorem flushed_eq (c : Dev nD) (t : Fin cfg1.N) :
    (dat1 V c).flushed 3 t
      = ((cfg1.win 3).blk t).view.read (Elt Ideal) (Spec.Z (V c main_arg1) (V c main_v1) (V c main_arg2)) := by
  obtain ⟨-, -, -, -, -, -, e6, e7⟩ := idx_facts t
  show (cfg1.win 3).cut (grid1.coords t) ((dat1 V c).after 3 t) = _
  rw [after1_3]
  unfold out1_3
  rw [View.canon_unit_zero zeros]
  simp only [View.ld_unit_zero (S := S400x10000) zeros, View.ld_unit_zero (S := S10000x32) zeros,
    View.ld_unit_zero (S := S400x16) zeros]
  funext y
  refine point (V c main_arg1) (V c main_v1) (V c main_arg2) (iblk1 V c 0 t) (iblk1 V c 1 t) (iblk1 V c 2 t) (blk t)
    (adjblock_apply V c t) (cwhole_eq V c t) (noiseblock_apply V c t) y (((cfg1.win 3).blk t).view.emb y) ?_ ?_
  · show win1_3.index t (0 : Fin 2) * 400 + 1 * (y 0).val = 400 * t.val + (y 0).val; omega
  · show win1_3.index t (1 : Fin 2) * 16 + 1 * (y 1).val = (y 1).val; omega

/-- An index of `z` is in point `t`'s block iff each coordinate is in the block's range on its axis. -/
theorem mem_blk (t : Fin cfg1.N) (i : S10000x16.Idx) :
    i ∈ ((cfg1.win 3).blk t).view.set ↔ ∀ a : Fin 2, win1_3.index t a * S400x16.size a ≤ (i a).val ∧ (i a).val < win1_3.index t a * S400x16.size a + S400x16.size a := by
  show i ∈ ((View.whole main_v2).slice (win1_3.rect t)).set ↔ _
  rw [View.set_slice_whole, Rect.mem_set_unit]
  exact Iff.rfl

/-- Row `i₀` is written by point `i₀ / 400`: the 25 row blocks cover the array. -/
theorem cover (i : S10000x16.Idx) :
    ∃ t : Fin cfg1.N, (cfg1.win 3).flush t = true ∧ i ∈ ((cfg1.win 3).blk t).view.set := by
  have hi0 : (i 0).val < 10000 := (i 0).isLt
  have hi1 : (i 1).val < 16 := (i 1).isLt
  have hN : cfg1.N = 25 := N_1
  let t : Fin cfg1.N := ⟨(i 0).val / 400, by rw [hN]; omega⟩
  obtain ⟨-, -, -, -, -, -, e6, e7⟩ := idx_facts t
  have ht : t.val = (i 0).val / 400 := rfl
  refine ⟨t, flush1_3 t, ?_⟩
  rw [mem_blk]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 16 ≤ (i 1).val ∧ (i 1).val < win1_3.index t (1 : Fin 2) * 16 + 16; omega

/-- The array `z` after the region is `Spec.Z` of the arrays the region is entered with. -/
theorem final (c : Dev nD) :
    (dat1 (F := Ideal) V c).arrAt 3 cfg1.N = Spec.Z (V c main_arg1) (V c main_v1) (V c main_arg2) :=
  (dat1 V c).arrAt_eq_of_cover 3 (Spec.Z (V c main_arg1) (V c main_v1) (V c main_arg2)) (fun t _ => flushed_eq V c t) cover

end Cert.KernelIdeal.Val1

end
-- ==== Proof.Value2.lean ====
import proofs.«125266_g63213328662976_cont_sun_m_190_13_alg».proof.Proof.Region2
import proofs.«125266_g63213328662976_cont_sun_m_190_13_alg».proof.Proof.Spec
import proofs.«125266_g63213328662976_cont_sun_m_190_13_alg».proof.Proof.Payload
import Idealize.ShloMosaic.Lib.Pipeline.Value
import Idealize.ShloMosaic.Lib.ValueIdx
import Idealize.ShloMosaic.Lib.Tactic

noncomputable section

namespace Cert.KernelIdeal.Val2

open Cert.KernelIdeal Cert.KernelIdeal.Gen Cert.KernelIdeal.R2
open Idealize.ShloMosaic Idealize.ShloMosaic.TcCoe Idealize.ShloMosaic.ValueIdx Idealize.SL.Sem
open Idealize.ShloMosaic.Pipeline (Dat)

/-! # The third region's result array, as one function of the array `z` it is entered with

Each grid point `t` writes rows `400 t … 400 t + 399` of the result; those rows are the same rows of
`Spec.A z = σ (z zᵀ)`, because the point's first input is the same rows of `z` and its second input is all of `z`.
The 25 row blocks cover the array. -/

variable (V : (c : Dev nD) → (b : Ref sig .tc) → Buf (Elt Ideal) ((c : Thread nD τ).loc b))

theorem zeros : (![0, 0] : Fin 2 → Nat) = fun _ => 0 := funext fun a => by fin_cases a <;> rfl

/-- A grid point as a block number. -/
def blk (t : Fin cfg2.N) : Fin 25 := ⟨t.val, Nat.lt_of_lt_of_eq t.isLt N_2⟩

/-- The windows' block indices at each grid point: the row-block windows are at block `t` on the rows and `0` on the
    columns; the whole-array window never moves. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry written at a point: with the first input the `b`-th row block of `z` and the second all of `z`, the
    body's value at `y` is `Spec.A z` at row `400 b + y₀`, column `y₁`. -/
theorem point (z : Vec Ideal S10000x16 .f32) (zblk : Vec Ideal S400x16 .f32) (zw : Vec Ideal S10000x16 .f32) (b : Fin 25)
    (hblk : ∀ (r : Fin 400) (j : Fin 16), zblk (ix2 r j) = z (ix2 (Spec.blockRow b r) j)) (hw : zw = z)
    (y : S400x10000.Idx) (i : S10000x10000.Idx) (hi0 : (i 0).val = 400 * b.val + (y 0).val) (hi1 : (i 1).val = (y 1).val) :
    k2_pay1 (F := Ideal) zblk zw y = Spec.A z i := by
  subst hw
  have hy : y = ix2 (y 0) (y 1) := eq_ix2 y
  have hi : i = ix2 (Spec.blockRow b (y 0)) (y 1) := by
    rw [eq_ix2 i]
    refine congrArg₂ ix2 (Fin.ext ?_) (Fin.ext ?_)
    · rw [hi0]; rfl
    · rw [hi1]
  rw [hy, hi]
  exact Cert.Payload.pay4_apply zw zblk b hblk (y 0) (y 1)

/-- The first input's block at point `t` is rows `400 t …` of `z`. -/
theorem zblock_apply (c : Dev nD) (t : Fin cfg2.N) (r : Fin 400) (j : Fin 16) :
    (iblk2 V c 0 t : Vec Ideal S400x16 .f32) (ix2 r j) = (V c main_v2 : Vec Ideal S10000x16 .f32) (ix2 (Spec.blockRow (blk t) r) j) := by
  obtain ⟨e0, e1, -, -, -, -⟩ := idx_facts t
  show (V c main_v2 : Vec Ideal S10000x16 .f32) (((cfg2.win 0).blk t).view.emb (ix2 r j)) = _
  refine congrArg _ ?_
  funext a; apply Fin.ext
  match a with
  | ⟨0, _⟩ => show win2_0.index t (0 : Fin 2) * 400 + 1 * r.val = 400 * t.val + r.val; omega
  | ⟨1, _⟩ => show win2_0.index t (1 : Fin 2) * 16 + 1 * j.val = j.val; omega

/-- The second input's block at every point is all of `z`. -/
theorem zwhole_eq (c : Dev nD) (t : Fin cfg2.N) :
    (iblk2 V c 1 t : Vec Ideal S10000x16 .f32) = (V c main_v2 : Vec Ideal S10000x16 .f32) := by
  obtain ⟨-, -, e2, e3, -, -⟩ := idx_facts t
  funext y
  show (V c main_v2 : Vec Ideal S10000x16 .f32) (((cfg2.win 1).blk t).view.emb y) = _
  refine congrArg _ ?_
  funext a; apply Fin.ext
  match a with
  | ⟨0, _⟩ => show win2_1.index t (0 : Fin 2) * 10000 + 1 * (y 0).val = (y 0).val; omega
  | ⟨1, _⟩ => show win2_1.index t (1 : Fin 2) * 16 + 1 * (y 1).val = (y 1).val; omega

/-- What point `t` writes back is block `t` of `Spec.A z`. -/
theorem flushed_eq (c : Dev nD) (t : Fin cfg2.N) :
    (dat2 V c).flushed 2 t = ((cfg2.win 2).blk t).view.read (Elt Ideal) (Spec.A (V c main_v2)) := by
  obtain ⟨-, -, -, -, e4, e5⟩ := idx_facts t
  show (cfg2.win 2).cut (grid2.coords t) ((dat2 V c).after 2 t) = _
  rw [after2_2]
  unfold out2_2
  rw [View.canon_unit_zero zeros]
  simp only [View.ld_unit_zero (S := S400x16) zeros, View.ld_unit_zero (S := S10000x16) zeros]
  funext y
  refine point (V c main_v2) (iblk2 V c 0 t) (iblk2 V c 1 t) (blk t) (zblock_apply V c t) (zwhole_eq V c t) y
    (((cfg2.win 2).blk t).view.emb y) ?_ ?_
  · show win2_2.index t (0 : Fin 2) * 400 + 1 * (y 0).val = 400 * t.val + (y 0).val; omega
  · show win2_2.index t (1 : Fin 2) * 10000 + 1 * (y 1).val = (y 1).val; omega

/-- An index of the result array is in point `t`'s block iff each coordinate is in the block's range on its axis. -/
theorem mem_blk (t : Fin cfg2.N) (i : S10000x10000.Idx) :
    i ∈ ((cfg2.win 2).blk t).view.set ↔ ∀ a : Fin 2, win2_2.index t a * S400x10000.size a ≤ (i a).val ∧ (i a).val < win2_2.index t a * S400x10000.size a + S400x10000.size a := by
  show i ∈ ((View.whole main_v3).slice (win2_2.rect t)).set ↔ _
  rw [View.set_slice_whole, Rect.mem_set_unit]
  exact Iff.rfl

/-- Row `i₀` is written by point `i₀ / 400`: the 25 row blocks cover the array. -/
theorem cover (i : S10000x10000.Idx) :
    ∃ t : Fin cfg2.N, (cfg2.win 2).flush t = true ∧ i ∈ ((cfg2.win 2).blk t).view.set := by
  have hi0 : (i 0).val < 10000 := (i 0).isLt
  have hi1 : (i 1).val < 10000 := (i 1).isLt
  have hN : cfg2.N = 25 := N_2
  let t : Fin cfg2.N := ⟨(i 0).val / 400, by rw [hN]; omega⟩
  obtain ⟨-, -, -, -, e4, e5⟩ := idx_facts t
  have ht : t.val = (i 0).val / 400 := rfl
  refine ⟨t, flush2_2 t, ?_⟩
  rw [mem_blk]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 10000 ≤ (i 1).val ∧ (i 1).val < win2_2.index t (1 : Fin 2) * 10000 + 10000; omega

/-- The result array after the region is `Spec.A` of the array `z` the region is entered with. -/
theorem final (c : Dev nD) : (dat2 (F := Ideal) V c).arrAt 2 cfg2.N = Spec.A (V c main_v2) :=
  (dat2 V c).arrAt_eq_of_cover 2 (Spec.A (V c main_v2)) (fun t _ => flushed_eq V c t) cover

end Cert.KernelIdeal.Val2

end
-- ==== Proof.RefSpec.lean ====
import proofs.«125266_g63213328662976_cont_sun_m_190_13_alg».proof.Proof.Gen.ReferenceIdeal.Read
import proofs.«125266_g63213328662976_cont_sun_m_190_13_alg».proof.Proof.Spec

/-!
# The reference computes the specification

The reference is the same composition written with plain array operations: `hidden = max (adj · (x · W₀)) 0`,
`μ = adj · (hidden · W_μ)`, `log σ = adj · (hidden · W_σ)`, `z = noise · exp (log σ) + μ`, and the decoder
`1 / (1 + exp (−(z · zᵀ)))`. Three remarks join it to the specification:

* the specification multiplies `hidden` by ONE 32-column matrix, the two heads side by side; column `j < 16` of
  that product is `hidden · W_μ` at `j` and column `16 + j` is `hidden · W_σ` at `j`, because a column of the
  side-by-side matrix is a column of one head — no law of arithmetic is used, only which entry is read;
* `z · zᵀ` at `(i, n)` reads the transpose at `(k, n)`, that is `z` at `(n, k)`;
* `1 / (1 + exp (−t))` with the literal `1.0` is the logistic function of the extended reals (its definition).

Everything is entry by entry; the order of every sum is the same on both sides.
-/

noncomputable section

namespace Cert.RefSpec

open Idealize.ShloMosaic Idealize.ShloMosaic.ValueIdx Cert.ReferenceIdeal.Read Cert.KernelIdeal
open scoped BigOperators

/-! ## The reference's operand indices, by coordinates -/

theorem lidx_v0 (a : Fin 10000) (b : Fin 32) (k : Fin 128) : lidx_main_v0 (ix2 a b) k = ix2 a k :=
  funext fun d => Fin.ext (by match d with | ⟨0, _⟩ => rfl | ⟨1, _⟩ => rfl)
theorem ridx_v0 (a : Fin 10000) (b : Fin 32) (k : Fin 128) : ridx_main_v0 (ix2 a b) k = ix2 k b :=
  funext fun d => Fin.ext (by match d with | ⟨0, _⟩ => rfl | ⟨1, _⟩ => rfl)
theorem lidx_v1 (a : Fin 10000) (b : Fin 32) (k : Fin 10000) : lidx_main_v1 (ix2 a b) k = ix2 a k :=
  funext fun d => Fin.ext (by match d with | ⟨0, _⟩ => rfl | ⟨1, _⟩ => rfl)
theorem ridx_v1 (a : Fin 10000) (b : Fin 32) (k : Fin 10000) : ridx_main_v1 (ix2 a b) k = ix2 k b :=
  funext fun d => Fin.ext (by match d with | ⟨0, _⟩ => rfl | ⟨1, _⟩ => rfl)
theorem lidx_v3 (a : Fin 10000) (b : Fin 16) (k : Fin 32) : lidx_main_v3 (ix2 a b) k = ix2 a k :=
  funext fun d => Fin.ext (by match d with | ⟨0, _⟩ => rfl | ⟨1, _⟩ => rfl)
theorem ridx_v3 (a : Fin 10000) (b : Fin 16) (k : Fin 32) : ridx_main_v3 (ix2 a b) k = ix2 k b :=
  funext fun d => Fin.ext (by match d with | ⟨0, _⟩ => rfl | ⟨1, _⟩ => rfl)
theorem lidx_v4 (a : Fin 10000) (b : Fin 16) (k : Fin 10000) : lidx_main_v4 (ix2 a b) k = ix2 a k :=
  funext fun d => Fin.ext (by match d with | ⟨0, _⟩ => rfl | ⟨1, _⟩ => rfl)
theorem ridx_v4 (a : Fin 10000) (b : Fin 16) (k : Fin 10000) : ridx_main_v4 (ix2 a b) k = ix2 k b :=
  funext fun d => Fin.ext (by match d with | ⟨0, _⟩ => rfl | ⟨1, _⟩ => rfl)
theorem lidx_v5 (a : Fin 10000) (b : Fin 16) (k : Fin 32) : lidx_main_v5 (ix2 a b) k = ix2 a k :=
  funext fun d => Fin.ext (by match d with | ⟨0, _⟩ => rfl | ⟨1, _⟩ => rfl)
theorem ridx_v5 (a : Fin 10000) (b : Fin 16) (k : Fin 32) : ridx_main_v5 (ix2 a b) k = ix2 k b :=
  funext fun d => Fin.ext (by match d with | ⟨0, _⟩ => rfl | ⟨1, _⟩ => rfl)
theorem lidx_v6 (a : Fin 10000) (b : Fin 16) (k : Fin 10000) : lidx_main_v6 (ix2 a b) k = ix2 a k :=
  funext fun d => Fin.ext (by match d with | ⟨0, _⟩ => rfl | ⟨1, _⟩ => rfl)
theorem ridx_v6 (a : Fin 10000) (b : Fin 16) (k : Fin 10000) : ridx_main_v6 (ix2 a b) k = ix2 k b :=
  funext fun d => Fin.ext (by match d with | ⟨0, _⟩ => rfl | ⟨1, _⟩ => rfl)
theorem lidx_v11 (a : Fin 10000) (b : Fin 10000) (k : Fin 16) : lidx_main_v11 (ix2 a b) k = ix2 a k :=
  funext fun d => Fin.ext (by match d with | ⟨0, _⟩ => rfl | ⟨1, _⟩ => rfl)
theorem ridx_v11 (a : Fin 10000) (b : Fin 10000) (k : Fin 16) : ridx_main_v11 (ix2 a b) k = ix2 k b :=
  funext fun d => Fin.ext (by match d with | ⟨0, _⟩ => rfl | ⟨1, _⟩ => rfl)
theorem idx_v10 (k : Fin 16) (n : Fin 10000) : idx_main_v10 (ix2 k n) = ix2 n k :=
  funext fun d => Fin.ext (by match d with | ⟨0, _⟩ => rfl | ⟨1, _⟩ => rfl)

/-! ## Literals -/

/-- The word of `1.0` is the extended real `1`. -/
theorem one_f32 : Ideal.ofBits .f32 0x3F800000#32 = 1 := IdealRules.sign_bit.ideal_onePat .f32

/-! ## The two heads side by side -/

/-- The 32-column matrix whose first 16 columns are `wmu` and last 16 are `wls`. -/
abbrev heads (hcat : Shape.Concatenates [S32x16, S32x16] S32x32 1) (wmu wls : Vec Ideal S32x16 .f32) :
    Vec Ideal S32x32 .f32 :=
  concatenate S32x32 1 [⟨S32x16, wmu⟩, ⟨S32x16, wls⟩] hcat

/-- Column `j < 16` of the side-by-side matrix is column `j` of the first head. -/
theorem heads_lo (hcat : Shape.Concatenates [S32x16, S32x16] S32x32 1) (wmu wls : Vec Ideal S32x16 .f32)
    (h : Fin 32) (j : Fin 16) : heads hcat wmu wls (ix2 h (Spec.loCol j)) = wmu (ix2 h j) :=
  concatenate_pair_apply_left (1 : Fin S32x32.rank) wmu wls hcat (ix2 h (Spec.loCol j)) rfl (ix2 h j)
    (fun b => match b with | ⟨0, _⟩ => rfl | ⟨1, _⟩ => rfl)

/-- Column `16 + j` of the side-by-side matrix is column `j` of the second head. -/
theorem heads_hi (hcat : Shape.Concatenates [S32x16, S32x16] S32x32 1) (wmu wls : Vec Ideal S32x16 .f32)
    (h : Fin 32) (j : Fin 16) : heads hcat wmu wls (ix2 h (Spec.hiCol j)) = wls (ix2 h j) :=
  concatenate_pair_apply_right (1 : Fin S32x32.rank) wmu wls hcat (ix2 h (Spec.hiCol j)) rfl rfl (ix2 h j)
    (fun b => match b with | ⟨0, _⟩ => fun _ => rfl | ⟨1, _⟩ => fun hb => absurd rfl hb)
    (Nat.add_comm _ _)

/-! ## Stage by stage -/

section
variable (x : Vec Ideal S10000x128 .f32) (adj : Vec Ideal S10000x10000 .f32) (noise : Vec Ideal S10000x16 .f32)
  (w0 : Vec Ideal S128x32 .f32) (wmu wls : Vec Ideal S32x16 .f32)

/-- The first product is the feature product. -/
theorem ref_t0 : val_main_v0 (F := Ideal) x w0 = Spec.T0 x w0 := by
  funext i
  obtain ⟨n, h, rfl⟩ : ∃ (n : Fin 10000) (h : Fin 32), i = ix2 n h := ⟨i 0, i 1, eq_ix2 i⟩
  rw [val_main_v0_apply, Spec.T0_apply]
  simp only [lidx_v0, ridx_v0]

/-- The rectified convolution, entry by entry. -/
theorem ref_hidden (i : Fin 10000) (h : Fin 32) :
    val_main_v2 (F := Ideal) x adj w0 (ix2 i h)
      = max (∑ n : Fin 10000, adj (ix2 i n) * Spec.T0 x w0 (ix2 n h)) 0 := by
  rw [val_main_v2_apply, val_main_v1_apply, val_main_call0_v0_apply, val_main_call0_cst_apply, ref_t0]
  simp only [lidx_v1, ridx_v1]
  show max _ (Ideal.ofBits .f32 0x00000000#32) = _
  rw [Ideal.ofBits_zero_f32]

variable (hcat : Shape.Concatenates [S32x16, S32x16] S32x32 1)

/-- `hidden · W_μ` is the first 16 columns of the product with both heads. -/
theorem ref_mu (i : Fin 10000) (j : Fin 16) :
    val_main_v3 (F := Ideal) x adj w0 wmu (ix2 i j)
      = Spec.C adj (Spec.T0 x w0) (heads hcat wmu wls) (ix2 i (Spec.loCol j)) := by
  rw [val_main_v3_apply, Spec.C_apply]
  simp only [lidx_v3, ridx_v3, ref_hidden]
  exact Finset.sum_congr rfl fun h _ => by rw [heads_lo]

/-- `hidden · W_σ` is the last 16 columns of the product with both heads. -/
theorem ref_ls (i : Fin 10000) (j : Fin 16) :
    val_main_v5 (F := Ideal) x adj w0 wls (ix2 i j)
      = Spec.C adj (Spec.T0 x w0) (heads hcat wmu wls) (ix2 i (Spec.hiCol j)) := by
  rw [val_main_v5_apply, Spec.C_apply]
  simp only [lidx_v5, ridx_v5, ref_hidden]
  exact Finset.sum_congr rfl fun h _ => by rw [heads_hi]

/-- The sample `z` of the reference is the specification's. -/
theorem ref_z :
    val_main_v9 (F := Ideal) x adj noise w0 wmu wls
      = Spec.Z adj (Spec.C adj (Spec.T0 x w0) (heads hcat wmu wls)) noise := by
  funext i
  obtain ⟨i, j, rfl⟩ : ∃ (a : Fin 10000) (b : Fin 16), i = ix2 a b := ⟨i 0, i 1, eq_ix2 i⟩
  rw [val_main_v9_apply, val_main_v8_apply, val_main_v7_apply, val_main_v6_apply, val_main_v4_apply, Spec.Z_apply]
  simp only [lidx_v4, ridx_v4, lidx_v6, ridx_v6, ref_mu x adj w0 wmu wls hcat, ref_ls x adj w0 wmu wls hcat,
    Ideal.addf_def, Ideal.mulf_def, Ideal.hostUnary_exp_def]

/-- The reference's result is the specification's. -/
theorem ref_eq_spec' :
    val_main_v17 (F := Ideal) x adj noise w0 wmu wls
      = Spec.A (Spec.Z adj (Spec.C adj (Spec.T0 x w0) (heads hcat wmu wls)) noise) := by
  funext i
  obtain ⟨i, n, rfl⟩ : ∃ (a b : Fin 10000), i = ix2 a b := ⟨i 0, i 1, eq_ix2 i⟩
  rw [val_main_v17_apply, val_main_v16_apply, val_main_cst_0_apply, val_main_v15_apply, val_main_v14_apply,
    val_main_cst_apply, val_main_v13_apply, val_main_v12_apply, val_main_v11_apply, Spec.A_apply,
    ← ref_z x adj noise w0 wmu wls hcat]
  simp only [val_main_v10_apply, lidx_v11, ridx_v11, idx_v10, Ideal.hostDivf_def, Ideal.addf_def,
    Ideal.hostUnary_exp_def, Ideal.hostNegf_def, Ideal.negf_def, Ideal.ofBits_def, one_f32, Ideal.logistic]

end

/-- The reference's result, as the run states it through its last stage, is the forward pass of the specification
    with the two heads side by side — the concatenation spelt as the kernel's host program spells it. -/
theorem ref_eq_spec (hcat : Shape.Concatenates [S32x16, S32x16] S32x32 1)
    (x : Vec Ideal S10000x128 .f32) (adj : Vec Ideal S10000x10000 .f32) (noise : Vec Ideal S10000x16 .f32)
    (w0 : Vec Ideal S128x32 .f32) (wmu wls : Vec Ideal S32x16 .f32) :
    val_main_v17 (F := Ideal) x adj noise w0 wmu wls
      = Spec.A (Spec.Z adj (Spec.C adj (Spec.T0 x w0)
          (concatenate S32x32 1 [⟨S32x16, wmu⟩, ⟨S32x16, wls⟩] hcat)) noise) :=
  ref_eq_spec' x adj noise w0 wmu wls hcat

end Cert.RefSpec

end
-- ==== Proof.Bridge.lean ====
/-
  The two idealized programs compute one function. Kernel side: the result array is the third pass's output, the
  logistic of z · zᵀ, where z is the second pass's output noise · exp(adj · c[:, 16:]) + adj · c[:, :16], where c is the
  first pass's output relu(adj · (x · W0)) · [W_mu | W_logstd] — each pass's output array read as a whole-array function
  of the arrays the pass found, and those arrays read back through the earlier segments to the launch memory. Reference
  side: the same composition with the two weight matrices multiplied separately, which is column selection in the
  concatenated matrix.
-/
import proofs.«125266_g63213328662976_cont_sun_m_190_13_alg».proof.Defs
import proofs.«125266_g63213328662976_cont_sun_m_190_13_alg».proof.Proof.RunB
import proofs.«125266_g63213328662976_cont_sun_m_190_13_alg».proof.Proof.Value0
import proofs.«125266_g63213328662976_cont_sun_m_190_13_alg».proof.Proof.Value1
import proofs.«125266_g63213328662976_cont_sun_m_190_13_alg».proof.Proof.Value2
import proofs.«125266_g63213328662976_cont_sun_m_190_13_alg».proof.Proof.RefSpec
import proofs.«125266_g63213328662976_cont_sun_m_190_13_alg».proof.Proof.Gen.ReferenceIdeal.Read
import Idealize.ShloMosaic.Lib.StableHlo.Run

set_option maxRecDepth 16384

noncomputable section

namespace Cert.Proof.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The concatenated weights [W_mu | W_logstd], as the host writes them before the first pass. -/
abbrev heads (c : Dev nD) : Vec Ideal S32x32 .f32 :=
  concatenate S32x32 1 [⟨S32x16, m ((c.tc : Thread nD τ).loc main_arg4)⟩, ⟨S32x16, m ((c.tc : Thread nD τ).loc main_arg5)⟩]
    Facts₀.concatenates_S32x16_S32x16_S32x32_d1

/-- What the first pass finds in the concatenation's buffer. -/
theorem V1_heads (c : Dev nD) : Run.V1 m ρ c main_v0 = heads m c := by
  show StableHlo.after hostOps0 (fun b => m (c, b)) (Proc.devRef .tc main_v0) = _
  after_results <;> rfl

/-- The program's result as one function of the launch memory. -/
def G (c : Dev nD) : Vec Ideal S10000x10000 .f32 :=
  Spec.A (Spec.Z (m ((c.tc : Thread nD τ).loc main_arg1))
    (Spec.C (m ((c.tc : Thread nD τ).loc main_arg1))
      (Spec.T0 (m ((c.tc : Thread nD τ).loc main_arg0)) (m ((c.tc : Thread nD τ).loc main_arg3))) (heads m c))
    (m ((c.tc : Thread nD τ).loc main_arg2)))

/-- The third pass's output array after the run is that function: each pass's array read through the pass before it. -/
theorem kernel_value (c : Dev nD) : (R2.dat2 (F := Ideal) (Run.V3 m ρ) c).arrAt 2 cfg2.N = G m c := by
  rw [Val2.final]
  rw [show Run.V3 m ρ c main_v2 = (R1.dat1 (F := Ideal) (Run.V2 m ρ) c).arrAt 3 cfg1.N from Run.W3_arr m ρ c 3]
  rw [Val1.final]
  rw [show Run.V2 m ρ c main_arg1 = m ((c.tc : Thread nD τ).loc main_arg1) from Run.W2_main_arg1 m ρ c,
    show Run.V2 m ρ c main_arg2 = m ((c.tc : Thread nD τ).loc main_arg2) from Run.W2_main_arg2 m ρ c,
    show Run.V2 m ρ c main_v1 = (R0.dat0 (F := Ideal) (Run.V1 m ρ) c).arrAt 4 cfg0.N from Run.W2_arr m ρ c 4]
  rw [Val0.final]
  rw [show Run.V1 m ρ c main_arg1 = m ((c.tc : Thread nD τ).loc main_arg1) from Run.W1_main_arg1 m ρ c,
    show Run.V1 m ρ c main_arg0 = m ((c.tc : Thread nD τ).loc main_arg0) from Run.W1_main_arg0 m ρ c,
    show Run.V1 m ρ c main_arg3 = m ((c.tc : Thread nD τ).loc main_arg3) from Run.W1_main_arg3 m ρ c,
    V1_heads]
  rfl

end Cert.Proof.Bridge

end
-- ==== Proof.lean ====
/-
  A variational graph auto-encoder's forward pass, A = logistic(z · zᵀ) with z = noise · exp(adj · h · W_logstd) + adj · h · W_mu
  and h = relu(adj · (x · W0)), as three grid passes over row blocks of 400 against the plain composition.

  The kernel multiplies h by the concatenation [W_mu | W_logstd] once and sweeps adj once for both heads; column j < 16 of
  the concatenated product is the W_mu head and column 16 + j the W_logstd head, so the two programs are the same sums in
  the same order and no algebraic law is needed: every step reads an operation at an index. Over the extended reals a
  matrix product into a zero accumulator and the host's dot product are the same finite sum, a change of tiling changes
  nothing, and the reference's 1 / (1 + exp(-t)) is the logistic function.

  The three frame claims: each pass runs its body at each of its 25 grid points — the first pass in two control cases,
  since x · W0 is computed at the first point into a buffer the later points read again — and the program's run is the
  chain of the host concatenation and the three passes; the third pass reads one array through two windows, whose share
  is split at its entry and joined at its exit. The same text proves the word-level program's frame. The reference has
  no grid: its run is the composition of its host operations.
-/
import proofs.«125266_g63213328662976_cont_sun_m_190_13_alg».proof.Defs
import proofs.«125266_g63213328662976_cont_sun_m_190_13_alg».proof.Proof.Gen.Kernel
import proofs.«125266_g63213328662976_cont_sun_m_190_13_alg».proof.Proof.Gen.KernelIdeal
import proofs.«125266_g63213328662976_cont_sun_m_190_13_alg».proof.Proof.Gen.ReferenceIdeal
import proofs.«125266_g63213328662976_cont_sun_m_190_13_alg».proof.Proof.Gen.Pre_finite_inputs
import proofs.«125266_g63213328662976_cont_sun_m_190_13_alg».proof.Proof.Gen.ReferenceIdeal.Run
import proofs.«125266_g63213328662976_cont_sun_m_190_13_alg».proof.Proof.Gen.ReferenceIdeal.Read
import proofs.«125266_g63213328662976_cont_sun_m_190_13_alg».proof.Proof.BRunB
import proofs.«125266_g63213328662976_cont_sun_m_190_13_alg».proof.Proof.RunB
import proofs.«125266_g63213328662976_cont_sun_m_190_13_alg».proof.Proof.Bridge
import proofs.«125266_g63213328662976_cont_sun_m_190_13_alg».proof.Proof.RefSpec
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Run.frame (F := Bits) m ρ

/-- So does the idealized program. -/
theorem frame_kernelIdeal : Cert.frame_KernelIdeal := fun m ρ _ => Cert.KernelIdeal.Run.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array at one function of the argument arrays: the kernel's by reading
    each pass's output through the pass before it, the reference's by reading its operations one at a time. -/
theorem algebraic : Cert.algebraic_KernelIdeal_ReferenceIdeal := by
  intro m ρ m' ρ' _ hagree
  refine ⟨fun c => Bridge.G m c, ?_, ?_⟩
  · exact (θ_run Cert.KernelIdeal.defs _ _).mono
      (fun _ h c => ⟨(h c).1.trans (Bridge.kernel_value m ρ c), (h c).2⟩) (Cert.KernelIdeal.Run.run_result (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v17_eq _ _ _ _ _ _).trans ?_)
    rw [Cert.RefSpec.ref_eq_spec Cert.KernelIdeal.Facts₀.concatenates_S32x16_S32x16_S32x32_d1,
      (hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
